-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512 : Shape := ⟨2, ![512, 512]⟩
abbrev S512x128x8 : Shape := ⟨3, ![512, 128, 8]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel
  bcast_S_S512x128x8 : S_.BroadcastsInDim S512x128x8 (![] : Fin 0 → Fin S512x128x8.rank)
  reducesTo_S512x128x8_S_d0_1_2 : S512x128x8.ReducesTo [0, 1, 2] S_

variable [Facts]

def fn {F : FTy → Type} [FloatOps F] (main_arg0 : FVec F S512x512 .f32) (main_arg1 : FVec F S512x128x8 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  let main_v4 : FVec F S512x128x8 .f32 := Host.absf main_arg1
  let main_cst_0 : FVec F S_ .f32 := constant S_ .f32 0x7F800000#32
  let main_v5 : FVec F S512x128x8 .f32 := broadcastInDim S512x128x8 ![] bcast_S_S512x128x8 main_cst_0
  let main_v6 : IVec S512x128x8 1 := cmpf .olt main_v4 main_v5
  let main_c_1 : IVec S_ 1 := constantI S_ 1 1#1
  let main_v7 : IVec S_ 1 := (fun x v => Host.reduce IntOp.andi x v reducesTo_S512x128x8_S_d0_1_2 h_S_) main_v6 main_c_1
  let main_v8 : IVec S_ 1 := andi main_v3 main_v7
  main_v8
-- ==== Kernel.lean ====
abbrev S512x512 : Shape := ⟨2, ![512, 512]⟩
abbrev S512x128x8 : Shape := ⟨3, ![512, 128, 8]⟩
abbrev S512x8x128 : Shape := ⟨3, ![512, 8, 128]⟩
abbrev S512x1024 : Shape := ⟨2, ![512, 1024]⟩
abbrev S512x128 : Shape := ⟨2, ![512, 128]⟩
abbrev S128x8x128 : Shape := ⟨3, ![128, 8, 128]⟩
abbrev S128x128 : Shape := ⟨2, ![128, 128]⟩
abbrev S128x128x128 : Shape := ⟨3, ![128, 128, 128]⟩
abbrev S128x1x128 : Shape := ⟨3, ![128, 1, 128]⟩
abbrev S1x128x128 : Shape := ⟨3, ![1, 128, 128]⟩
abbrev S512x640 : Shape := ⟨2, ![512, 640]⟩

abbrev nBuf : Space → Nat
  | .hbm => 8
  | .vmem => 9
  | .smem => 0
  | _ => 0

abbrev bufTy : (tb : Table) → Fin (tcTables nBuf tb) → BufTy
  | .hbm, ⟨0, _⟩ => ⟨S512x512, .f32⟩
  | .hbm, ⟨1, _⟩ => ⟨S512x128x8, .f32⟩
  | .hbm, ⟨2, _⟩ => ⟨S512x8x128, .f32⟩
  | .hbm, ⟨3, _⟩ => ⟨S512x1024, .f32⟩
  | .hbm, ⟨4, _⟩ => ⟨S512x1024, .f32⟩
  | .hbm, ⟨5, _⟩ => ⟨S512x8x128, .f32⟩
  | .hbm, ⟨6, _⟩ => ⟨S512x128, .f32⟩
  | .hbm, ⟨7, _⟩ => ⟨S512x640, .f32⟩
  | .local _ .vmem, ⟨0, _⟩ => ⟨S512x512, .f32⟩
  | .local _ .vmem, ⟨1, _⟩ => ⟨S512x1024, .f32⟩
  | .local _ .vmem, ⟨2, _⟩ => ⟨S512x1024, .f32⟩
  | .local _ .vmem, ⟨3, _⟩ => ⟨S128x8x128, .f32⟩
  | .local _ .vmem, ⟨4, _⟩ => ⟨S128x8x128, .f32⟩
  | .local _ .vmem, ⟨5, _⟩ => ⟨S128x8x128, .f32⟩
  | .local _ .vmem, ⟨6, _⟩ => ⟨S128x8x128, .f32⟩
  | .local _ .vmem, ⟨7, _⟩ => ⟨S128x128, .f32⟩
  | .local _ .vmem, ⟨8, _⟩ => ⟨S128x128, .f32⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S128x8x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S128x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S128x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  transposes_S512x128x8_S512x8x128_0_2_1 : S512x128x8.Transposes [0, 2, 1] S512x8x128
  shapeCasts_S512x8x128_S512x1024 : S512x8x128.ShapeCasts S512x1024
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  shapeCasts_S512x1024_S512x8x128 : S512x1024.ShapeCasts S512x8x128
  inb_S128x128_S128x128_0_0 : ∀ a, (![0, 0] : Fin 2 → Nat) a + S128x128.size a ≤ S128x128.size a
  h_S128x128 : 0 < S128x128.numel
  inb_S128x8x128_S128x8x128_0_0_0 : ∀ a, (![0, 0, 0] : Fin 3 → Nat) a + S128x8x128.size a ≤ S128x8x128.size a
  h_S128x8x128 : 0 < S128x8x128.numel
  shapeCasts_S128x8x128_S128x8x128 : S128x8x128.ShapeCasts S128x8x128
  slices_S128x8x128_o0_0_0_S128x1x128 : S128x8x128.Slices ![0, 0, 0] S128x1x128
  shapeCasts_S128x1x128_S128x128 : S128x1x128.ShapeCasts S128x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  slices_S128x8x128_o0_1_0_S128x1x128 : S128x8x128.Slices ![0, 1, 0] S128x1x128
  slices_S128x8x128_o0_2_0_S128x1x128 : S128x8x128.Slices ![0, 2, 0] S128x1x128
  slices_S128x8x128_o0_3_0_S128x1x128 : S128x8x128.Slices ![0, 3, 0] S128x1x128
  slices_S128x8x128_o0_4_0_S128x1x128 : S128x8x128.Slices ![0, 4, 0] S128x1x128
  slices_S128x8x128_o0_5_0_S128x1x128 : S128x8x128.Slices ![0, 5, 0] S128x1x128
  slices_S128x8x128_o0_6_0_S128x1x128 : S128x8x128.Slices ![0, 6, 0] S128x1x128
  slices_S128x8x128_o0_7_0_S128x1x128 : S128x8x128.Slices ![0, 7, 0] S128x1x128
  shapeCasts_S128x128_S128x128 : S128x128.ShapeCasts S128x128
  reduces_S128x128x128_S128x128 : S128x128x128.Reduces [1] S128x128
  concatenates_S512x512_S512x128_S512x640_d1 : Shape.Concatenates [S512x512, S512x128] S512x640 1
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S512x512.size a
  hwx0_0 : ∀ i : grid0.Coords, EltTy.bits .f32 = 32 ∨ (Rect.block (s := S512x512) S512x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S512x1024.size a
  hwx0_1 : ∀ i : grid0.Coords, EltTy.bits .f32 = 32 ∨ (Rect.block (s := S512x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .f32 = 32 ∨ (Rect.block (s := S512x1024) S512x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x8x128.size a ≤ S512x8x128.size a
  hwx1_0 : ∀ i : grid1.Coords, EltTy.bits .f32 = 32 ∨ (Rect.block (s := S512x8x128) S128x8x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S128x8x128.size a ≤ S512x8x128.size a
  hwx1_1 : ∀ i : grid1.Coords, EltTy.bits .f32 = 32 ∨ (Rect.block (s := S512x8x128) S128x8x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S512x128.size a
  hwx1_2 : ∀ i : grid1.Coords, EltTy.bits .f32 = 32 ∨ (Rect.block (s := S512x128) S128x128.size (cc1_transform_2 i) (hinb1_2 i)).WholeWords (EltTy.packing .f32)

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S512x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x1024.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S128x8x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S128x8x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S512x512 : Shape := ⟨2, ![512, 512]⟩
abbrev S512x128x8 : Shape := ⟨3, ![512, 128, 8]⟩
abbrev S512x1024 : Shape := ⟨2, ![512, 1024]⟩
abbrev S1x512x128x8 : Shape := ⟨4, ![1, 512, 128, 8]⟩
abbrev S512x1x128x8 : Shape := ⟨4, ![512, 1, 128, 8]⟩
abbrev S512x512x128x8 : Shape := ⟨4, ![512, 512, 128, 8]⟩
abbrev S_ : Shape := ⟨0, ![]⟩
abbrev S512x512x128 : Shape := ⟨3, ![512, 512, 128]⟩
abbrev S512x128 : Shape := ⟨2, ![512, 128]⟩
abbrev S512x640 : Shape := ⟨2, ![512, 640]⟩

abbrev nBuf : Space → Nat
  | .hbm => 18
  | .vmem => 0
  | .smem => 0
  | _ => 0

abbrev bufTy : (tb : Table) → Fin (tcTables nBuf tb) → BufTy
  | .hbm, ⟨0, _⟩ => ⟨S512x512, .f32⟩
  | .hbm, ⟨1, _⟩ => ⟨S512x128x8, .f32⟩
  | .hbm, ⟨2, _⟩ => ⟨S512x1024, .f32⟩
  | .hbm, ⟨3, _⟩ => ⟨S512x1024, .f32⟩
  | .hbm, ⟨4, _⟩ => ⟨S512x128x8, .f32⟩
  | .hbm, ⟨5, _⟩ => ⟨S1x512x128x8, .f32⟩
  | .hbm, ⟨6, _⟩ => ⟨S512x1x128x8, .f32⟩
  | .hbm, ⟨7, _⟩ => ⟨S512x512x128x8, .f32⟩
  | .hbm, ⟨8, _⟩ => ⟨S512x512x128x8, .f32⟩
  | .hbm, ⟨9, _⟩ => ⟨S512x512x128x8, .f32⟩
  | .hbm, ⟨10, _⟩ => ⟨S512x512x128x8, .f32⟩
  | .hbm, ⟨11, _⟩ => ⟨S_, .f32⟩
  | .hbm, ⟨12, _⟩ => ⟨S512x512x128, .f32⟩
  | .hbm, ⟨13, _⟩ => ⟨S512x512x128, .f32⟩
  | .hbm, ⟨14, _⟩ => ⟨S512x512x128, .f32⟩
  | .hbm, ⟨15, _⟩ => ⟨S_, .f32⟩
  | .hbm, ⟨16, _⟩ => ⟨S512x128, .f32⟩
  | .hbm, ⟨17, _⟩ => ⟨S512x640, .f32⟩
  | _, _ => ⟨S512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S512x128x8_S512x1024 : S512x128x8.ShapeCasts S512x1024
  shapeCasts_S512x1024_S512x128x8 : S512x1024.ShapeCasts S512x128x8
  bcast_S512x128x8_S1x512x128x8_1_2_3 : S512x128x8.BroadcastsInDim S1x512x128x8 (![1, 2, 3] : Fin 3 → Fin S1x512x128x8.rank)
  bcast_S512x128x8_S512x1x128x8_0_2_3 : S512x128x8.BroadcastsInDim S512x1x128x8 (![0, 2, 3] : Fin 3 → Fin S512x1x128x8.rank)
  bcast_S1x512x128x8_S512x512x128x8_0_1_2_3 : S1x512x128x8.BroadcastsInDim S512x512x128x8 (![0, 1, 2, 3] : Fin 4 → Fin S512x512x128x8.rank)
  bcast_S512x1x128x8_S512x512x128x8_0_1_2_3 : S512x1x128x8.BroadcastsInDim S512x512x128x8 (![0, 1, 2, 3] : Fin 4 → Fin S512x512x128x8.rank)
  reducesTo_S512x512x128x8_S512x512x128_d3 : S512x512x128x8.ReducesTo [3] S512x512x128
  h_S_ : 0 < S_.numel
  reducesTo_S512x512x128_S512x128_d1 : S512x512x128.ReducesTo [1] S512x128
  concatenates_S512x512_S512x128_S512x640_d1 : Shape.Concatenates [S512x512, S512x128] S512x640 1
  dot_S512x512_S512x1024_S512x1024_1_0_0_1_n_n_wf : DotDims.WF S512x512 S512x1024 S512x1024 [1] [0] [0] [1] [] []

variable [Facts₀]

def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

class Facts : Prop extends Facts₀ where

variable [Facts]
-- ==== Proof.FrameKernel.Reg0.lean ====
/- Region 0 of @main — the projection matmul's pallas_call (pipeline 0, kernel function cc0__matmul_kernel) — stated
   at a PARAMETER V, the buffer contents when the region is entered, and for any float instance.

   The grid has one point and every window's block is its whole array: window 0 is the left factor [512,512], window 1
   the right factor [512,1024], window 2 the product [512,1024]. At the point the body reads both factors whole, reads
   the product's buffer once (the value is not used) and stores, over the whole buffer, the product of the two factors
   it read. So after the body each factor's buffer holds what it held — the factor's array as the region found it —
   and the product's buffer holds one whole-rectangle piece: the matmul payload of the two factors' blocks.

   This module gives the pipeline's proof data with exactly that content and proves the body's obligation against it. -/
import proofs.«147698_j2860448219172_1_alg».proof.Proof.Gen.Kernel.Launch
import proofs.«147698_j2860448219172_1_alg».proof.Proof.Gen.Kernel.Skeleton
import proofs.«147698_j2860448219172_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, for any proof data whose array is the
    entry contents and whose body leaves the block in place: the window is whole, never cut, never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole rectangle -/

/-- The left factor's whole rectangle. -/
abbrev r0_0 : Rect S512x512 := Rect.unit (s := S512x512) ![0, 0] S512x512.size inb_S512x512_S512x512_0_0
/-- The whole rectangle of the right factor and of the product. -/
abbrev r0_1 : Rect S512x1024 := Rect.unit (s := S512x1024) ![0, 0] S512x1024.size inb_S512x1024_S512x1024_0_0

/-! ## What the body leaves in the product's buffer -/

/-- The product's buffer after the body, from the two factors' blocks: one store over the whole rectangle, of the
    matmul payload of the factors read whole. -/
def out0_2 (x0 : Vec F S512x512 .f32) (x1 : Vec F S512x1024 .f32) : Vec F S512x1024 .f32 :=
  View.canon [⟨r0_1, k0_pay1 (View.ld x0 r0_0) (View.ld x1 r0_1)⟩]

/-- The one store is the whole shape, so it covers the buffer (one block of the shape's own size). -/
theorem cover0_2 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-! ## The body's triple -/

set_option maxHeartbeats 1000000 in
/-- The body on whole staging memrefs, the factors' at read contents x0, x1 and the product's at anything, runs to the
    continuation holding the factors' as they were and the product's at out0_2 x0 x1. -/
theorem sound_kernel0 (c : Dev nD) (E : Set ℕ) (i : grid0.Coords)
    (arg1 : Memref sig .tc .vmem S512x512 .f32) (harg1 : arg1.IsWhole)
    (arg2 : Memref sig .tc .vmem S512x1024 .f32) (harg2 : arg2.IsWhole)
    (arg3 : Memref sig .tc .vmem S512x1024 .f32) (harg3 : arg3.IsWhole)
    (x0 : Vec F S512x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body each factor's buffer at
    its block and the product's at out0_2 of the two blocks; the invariant the scoped rest and the generator
    register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each factor's staging buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.FrameKernel.Reg1Runs.lean ====
/-
  The pairwise-distance call (the second pallas_call), its body on any staging buffers. The grid is 4 x 4: the point
  (i, j) reads rows 128 i .. 128 i + 127 of the projected array through its first window and rows 128 j .. 128 j + 127
  of the SAME array through its second, and adds into the output block of rows 128 i .. the sums over the j-block.
  The body resets its output block when j = 0 and otherwise adds to what the point before left there, so it is run
  twice: once with the branch taken, once not. Everything here holds at any float instance.
-/
import proofs.«147698_j2860448219172_1_alg».proof.Proof.Gen.Kernel.Launch
import proofs.«147698_j2860448219172_1_alg».proof.Proof.Gen.Kernel.Skeleton
import proofs.«147698_j2860448219172_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

-- The buffer contents of a core when the call is entered: a parameter of everything below.
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The i-block window's staging buffer holds its block at every point, fetched there or not (it is fetched when j = 0
    and its index does not move while j runs). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The j-block window's staging buffer holds its block at every point. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: "j = 0", as the printed scalar chain over the grid coordinates. -/
abbrev cond1_0 (i : grid1.Coords) : Prop := (Scalar.cmpi .ne (Scalar.extui (Scalar.cmpi .eq (BitVec.ofNat 32 (i 1).val) 0#32)) 0#32) = 1#1
/-- Points are numbered i * 4 + j, so the branch is taken exactly at the points divisible by 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- One staging buffer of the output window, through which its contents are stated (the choice does not matter). -/
abbrev VO1_2 : View sig .tc .vmem S128x128 .f32 := (Memref.whole cc1_stg2_0 : Memref sig .tc .vmem S128x128 .f32).view
/-- Each window's current staging buffer at point `t`, as the pipeline passes it to the body. -/
abbrev ms1_0 (t : Fin cfg1.N) : Memref sig .tc .vmem S128x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)

set_option maxHeartbeats 1000000 in
/-- j = 0: the body zeroes its output block, reads the two input blocks, reads the zeroed block back and stores the
    block's new contents. The list is what its stores leave in the output buffer (last first), found by running it. -/
noncomputable def kernelRun1_A (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : cond1_0 i) (x0 : Vec F S128x8x128 .f32) (x1 : Vec F S128x8x128 .f32) :
    { L2 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__pairwise_kernel i arg2 harg2 arg3 harg3 arg4 harg4) K } := by
  refine ⟨?_, fun E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- j > 0: the body reads the two input blocks and the output block as the point before left it (`xo`), and stores
    the block's new contents. -/
noncomputable def kernelRun1_B (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : ¬cond1_0 i) (x0 : Vec F S128x8x128 .f32) (x1 : Vec F S128x8x128 .f32) (xo : Vec F S128x128 .f32) :
    { L2 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__pairwise_kernel i arg2 harg2 arg3 harg3 arg4 harg4) K } := by
  refine ⟨?_, fun E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, Hk⟩
    obtain rfl := harg2.eq_unread hf0
    obtain rfl := harg3.eq_unread hf1
    obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Hand

end
-- ==== Proof.FrameKernel.Reg1.lean ====
/-
  The pairwise-distance call: what its output block holds after each grid point, the pipeline's proof data, and the
  body's obligation at every point. The output block of rows 128 i .. is reset at (i, 0), added to at (i, 1..3) and
  written back after (i, 3); between those points its staging buffer keeps what the point before left. The two input
  windows read ONE array, so each holds half of it.
-/
import proofs.«147698_j2860448219172_1_alg».proof.Proof.FrameKernel.Reg1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- With j = 0 the body's stores cover the output block. -/
theorem cover1_A_2 (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : cond1_0 i) (x0 : Vec F S128x8x128 .f32) (x1 : Vec F S128x8x128 .f32) (y : S128x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S128x128.size (by sl_kernel_rfl) y

/-- What the body leaves in the output block when j = 0: its stores read back. -/
def out1_A_2 (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : cond1_0 i) (x0 : Vec F S128x8x128 .f32) (x1 : Vec F S128x8x128 .f32) : Vec F S128x128 .f32 :=
  VO1_2.read (Elt F) (VO1_2.writes (Elt F) VO1_2.junk (kernelRun1_A c i arg2 harg2 arg3 harg3 arg4 harg4 hc0 x0 x1).1)

/-- With j > 0 the body's one store covers the output block. -/
theorem cover1_B_2 (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : ¬cond1_0 i) (x0 : Vec F S128x8x128 .f32) (x1 : Vec F S128x8x128 .f32) (xo : Vec F S128x128 .f32) (y : S128x128.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S128x128.size (by sl_kernel_rfl) y

/-- What the body leaves in the output block when j > 0, from what it found there (`xo`). -/
def out1_B_2 (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : ¬cond1_0 i) (x0 : Vec F S128x8x128 .f32) (x1 : Vec F S128x8x128 .f32) (xo : Vec F S128x128 .f32) : Vec F S128x128 .f32 :=
  VO1_2.read (Elt F) (VO1_2.writes (Elt F) VO1_2.junk (kernelRun1_B c i arg2 harg2 arg3 harg3 arg4 harg4 hc0 x0 x1 xo).1)

/-- THE ACCUMULATION: what the output's staging buffer holds after the body at position `n` — at a point with j = 0
    the reset-and-add of that point's two input blocks, otherwise the add over what position `n - 1` left. -/
def outsAt1 (c : Dev nD) : (n : ℕ) → n < cfg1.N → Vec F S128x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 4 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

/-- At a point with j = 0. -/
theorem outsAt1_A (c : Dev nD) (t : Fin cfg1.N) (h0 : t.val % 4 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- At a point with j > 0: over what the point before left. -/
theorem outsAt1_B (c : Dev nD) (t : Fin cfg1.N) (h0 : ¬t.val % 4 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the call on core `c`: the arrays as the call finds them; after the body each input's buffer at its
    block and the output's at `outsAt1`; the invariant is the untouched rest (the other call's staging buffers and the
    generator register); nothing owed; the projected array is read by both input windows, each at one half of it. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point with j > 0 the output's staging buffer holds what the body left at the point before: the point is not the
    first, and the block is written back only after j = 3. -/
theorem before1_2_B (c : Dev nD) (t : Fin cfg1.N) (h0 : ¬t.val % 4 = 0) (d) :
    (dat1 V c).before 2 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; the point's j says which run applies; with j > 0 the
    output's buffer holds what the point before left; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The body obligation of the call, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameKernel.RunCond.lean ====
/-
  The whole program's run, given one record per kernel call: @main is transpose, reshape, the projection call, a reshape,
  the pairwise call, and the concatenation. Every weakly fair execution terminates; the final memory holds the two
  arguments as launched and the result buffer at the last valuation of the fold through those six items, in which what
  the two calls leave in their output arrays stands as an unknown (`outs`). The frame claim is this with the result
  forgotten.
-/
import proofs.«147698_j2860448219172_1_alg».proof.Proof.Gen.Kernel.Regions

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

variable (m : (ℓ : Loc nD τ sig) → Buf (Elt F) ℓ)

set_option backward.isDefEq.respectTransparency.types false in
/-- The run with the result named: as the conditional frame, and the result buffer `main_v5` ends at the last
    valuation's contents (the concatenation of the first argument with what the pairwise call left). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v5) = V5 m outs c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_v5) = V5 m outs c main_v5
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result and each argument read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v5) (Finset.mem_filter.mpr ⟨StableHlo.devRef_mem_tcRefs main_v5, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c)⟩
    · iexact HSI

end Cert.Kernel.Hand

end
-- ==== Proof.FrameKernel.Segs.lean ====
/-
  The two kernel calls as segments of @main. Between two items a core holds every unscoped buffer whole, at the
  contents the fold through @main gives it, beside the generator register and an empty debt. A call takes its windows'
  arrays out of those buffers when it is entered and puts them back, at what its write-backs leave, when it returns.
  The projection call's three arrays are distinct buffers. The pairwise call reads ONE array (the projected array,
  reshaped) through two windows: on entry that buffer's points-to is cut into two halves, one per window, and on
  return the halves — still at the same contents, an input is never written — are joined again.
-/
import proofs.«147698_j2860448219172_1_alg».proof.Proof.FrameKernel.Reg0
import proofs.«147698_j2860448219172_1_alg».proof.Proof.FrameKernel.Reg1
import proofs.«147698_j2860448219172_1_alg».proof.Proof.FrameKernel.RunCond
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (outs : Outs (F := F))

/-- The contents of a core's buffers when the projection call is entered, when it returns, when the pairwise call is
    entered and when it returns, read at the TensorCore's references. -/
abbrev E1 : (c : Dev nD) → (b : Ref sig .tc) → Buf (Elt F) ((c : Thread nD τ).loc b) := fun c b => V1 m c b
abbrev E2 : (c : Dev nD) → (b : Ref sig .tc) → Buf (Elt F) ((c : Thread nD τ).loc b) := fun c b => V2 m outs c b
abbrev E3 : (c : Dev nD) → (b : Ref sig .tc) → Buf (Elt F) ((c : Thread nD τ).loc b) := fun c b => V3 m outs c b
abbrev E4 : (c : Dev nD) → (b : Ref sig .tc) → Buf (Elt F) ((c : Thread nD τ).loc b) := fun c b => V4 m outs c b

/-- Each call's proof data at its own entry contents. -/
def pdats : (p : Fin 2) → (c : Dev nD) → Dat τ (Elt F) Unit ℕ (Pipeline.UD sig nD τ) ℕ (cfgs p) c
  | ⟨0, _⟩ => fun c => dat0 (E1 m) c
  | ⟨1, _⟩ => fun c => dat1 (E3 m outs) c

abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- What the unknown `outs` must be for the fold to describe the run: each call's output array at what its write-backs
    leave. -/
structure OutsOk : Prop where
  h2 : ∀ c : Dev nD, outs 2 main_v2 c = (dat0 (E1 m) c).arrAt 2 cfg0.N
  h4 : ∀ c : Dev nD, outs 4 main_v4 c = (dat1 (E3 m outs) c).arrAt 2 cfg1.N

variable {m outs}

/-- When the projection call returns, each of its arrays holds what the fold says: the two inputs what they held, the
    output the unknown. -/
theorem hF0 (ok : OutsOk m outs) (c : Dev nD) : ∀ w : Fin cfg0.W, (dat0 (E1 m) c).arrAt w cfg0.N = E2 m outs c (Pipeline.arrRef spec0 w)
  | ⟨0, _⟩ => (((dat0 (E1 m) c).arrAt_in 0 rfl _).trans (A_eq0 (E1 m) c 0)).trans (V2_of m outs c main_arg0 (by decide)).symm
  | ⟨1, _⟩ => (((dat0 (E1 m) c).arrAt_in 1 rfl _).trans (A_eq0 (E1 m) c 1)).trans (V2_of m outs c main_v1 (by decide)).symm
  | ⟨2, _⟩ => (ok.h2 c).symm.trans (Function.update_self (Proc.devRef .tc main_v2 : DevRef τ sig) (outs 2 main_v2 c) (V1 m c)).symm
theorem hrest0 (c : Dev nD) : ∀ b, b ∉ Finset.univ.image (Pipeline.arrRef spec0) → E2 m outs c b = E1 m c b :=
  fun b hb => V2_of m outs c b (fun h => hb (by
    rw [List.mem_singleton] at h; subst h
    exact Finset.mem_image.mpr ⟨2, Finset.mem_univ _, rfl⟩))

set_option backward.isDefEq.respectTransparency.types false in
/-- THE PROJECTION CALL as a segment. -/
def reg0 (ok : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m outs) ((pdats m outs 0 c).share_full fun _ => rfl)
      (E1 m c) (E2 m outs c) ((pdats m outs 0 c).arrAt · cfg0.N) (hF0 ok c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pairwise call -/

/-- The call's arrays, window by window: the projected array at one half for each input window, the output array whole. -/
theorem arrays1_eq (c : Dev nD) (G : (w : Fin cfg1.W) → Buf (Elt F) ((cfg1.win w).arr.view.loc (c.tc : Thread nD τ))) :
    ((pdats m outs 1 c).arrays G : sProp 𝕄)
      = iprop((((c.tc : Thread nD τ).loc (Pipeline.arrRef spec1 0)) ↦{fullShare.left} G 0)
          ∗ (((c.tc : Thread nD τ).loc (Pipeline.arrRef spec1 1)) ↦{fullShare.right} G 1)
          ∗ (((c.tc : Thread nD τ).loc (Pipeline.arrRef spec1 2)) ↦{fullShare} G 2)) := by
  unfold Dat.arrays
  have e0 : ((cfgs (1 : Fin 2)).win 0).arr.view.set = Finset.univ := (arr_whole1 0).set_eq_univ
  have e1 : ((cfgs (1 : Fin 2)).win 1).arr.view.set = Finset.univ := (arr_whole1 1).set_eq_univ
  have e2 : ((cfgs (1 : Fin 2)).win 2).arr.view.set = Finset.univ := (arr_whole1 2).set_eq_univ
  rw [bigSep_W1, e0, e1, e2]
  rfl

/-- The distinct buffers behind the call's arrays: the projected array and the output array. -/
theorem arrBufs1_eq (c : Dev nD) (W : (b : Ref sig .tc) → Buf (Elt F) ((c.tc : Thread nD τ).loc b)) :
    (Pipeline.arrBufs (Ix := Unit) (Name := ℕ) (U := Pipeline.UD sig nD τ) (Lvl := ℕ) spec1 c W : sProp 𝕄)
      = iprop((((c.tc : Thread nD τ).loc main_v3) ↦{fullShare} W main_v3) ∗ (((c.tc : Thread nD τ).loc main_v4) ↦{fullShare} W main_v4)) := by
  unfold Pipeline.arrBufs
  rw [BI.bigSep_eq_bigSepL_of_eq [main_v3, main_v4] (by decide) (by decide)]
  rfl

/-- ENTRY: a core's unscoped buffers are the call's arrays — the projected array's points-to cut in two halves — and the rest. -/
theorem entry1 (c : Dev nD) (W : (b : Ref sig .tc) → Buf (Elt F) ((c.tc : Thread nD τ).loc b))
    (G : (w : Fin cfg1.W) → Buf (Elt F) ((cfg1.win w).arr.view.loc (c.tc : Thread nD τ)))
    (h0 : G 0 = W main_v3) (h1 : G 1 = W main_v3) (h2 : G 2 = W main_v4) :
    (unscopedBufs (Ix := Unit) (Name := ℕ) (U := Pipeline.UD sig nD τ) (Lvl := ℕ) c W : sProp 𝕄)
      ⊢ iprop((pdats m outs 1 c).arrays G ∗ Pipeline.unscopedRest spec1 c W) := by
  have hs : (unscopedBufs (Ix := Unit) (Name := ℕ) (U := Pipeline.UD sig nD τ) (Lvl := ℕ) c W : sProp 𝕄)
      = iprop(Pipeline.arrBufs spec1 c W ∗ Pipeline.unscopedRest spec1 c W) :=
    Pipeline.unscopedBufs_split₀ cfgs (1 : Fin 2) winFacts₀1.arr_unscoped c W
  rw [hs, arrays1_eq, arrBufs1_eq, h0, h1, h2]
  refine sep_mono ?_ .rfl
  iintro ⟨H3, H4⟩
  ihave H := (pointsTo_share (PosShare.mem_left_op_right fullShare)).1 $$ H3
  icases H with ⟨Ha, Hb⟩
  isplitl [Ha]; · iexact Ha
  isplitl [Hb]; · iexact Hb
  iexact H4

/-- EXIT: the call's arrays — the two halves of the projected array at one contents — and the rest are the core's
    unscoped buffers at any valuation that has the arrays at those contents and agrees with the old one elsewhere. -/
theorem exit1 (c : Dev nD) (W W' : (b : Ref sig .tc) → Buf (Elt F) ((c.tc : Thread nD τ).loc b))
    (G : (w : Fin cfg1.W) → Buf (Elt F) ((cfg1.win w).arr.view.loc (c.tc : Thread nD τ)))
    (h0 : G 0 = W' main_v3) (h1 : G 1 = W' main_v3) (h2 : G 2 = W' main_v4)
    (hrest : ∀ b, b ∉ Finset.univ.image (Pipeline.arrRef spec1) → W' b = W b) :
    iprop((pdats m outs 1 c).arrays G ∗ Pipeline.unscopedRest spec1 c W)
      ⊢ (unscopedBufs (Ix := Unit) (Name := ℕ) (U := Pipeline.UD sig nD τ) (Lvl := ℕ) c W' : sProp 𝕄) := by
  have hs : (unscopedBufs (Ix := Unit) (Name := ℕ) (U := Pipeline.UD sig nD τ) (Lvl := ℕ) c W' : sProp 𝕄)
      = iprop(Pipeline.arrBufs spec1 c W' ∗ Pipeline.unscopedRest spec1 c W') :=
    Pipeline.unscopedBufs_split₀ cfgs (1 : Fin 2) winFacts₀1.arr_unscoped c W'
  rw [hs, arrays1_eq, arrBufs1_eq, h0, h1, h2]
  refine sep_mono ?_ (Entails.of_eq ?_)
  · iintro ⟨Ha, Hb, H4⟩
    isplitl [Ha Hb]
    · iapply (pointsTo_share (PosShare.mem_left_op_right fullShare)).2
      isplitl [Ha]; · iexact Ha
      iexact Hb
    iexact H4
  · unfold Pipeline.unscopedRest
    exact bigSep_congr fun b hb => by rw [hrest b (Finset.mem_sdiff.mp hb).2]

/-- When the pairwise call returns its arrays hold what the fold says: the projected array what it held, the output the unknown. -/
theorem hF1_0 (c : Dev nD) : (dat1 (E3 m outs) c).arrAt 0 cfg1.N = E4 m outs c main_v3 :=
  (((dat1 (E3 m outs) c).arrAt_in 0 rfl _).trans (A_eq1 (E3 m outs) c 0)).trans (V4_of m outs c main_v3 (by decide)).symm
theorem hF1_1 (c : Dev nD) : (dat1 (E3 m outs) c).arrAt 1 cfg1.N = E4 m outs c main_v3 :=
  (((dat1 (E3 m outs) c).arrAt_in 1 rfl _).trans (A_eq1 (E3 m outs) c 1)).trans (V4_of m outs c main_v3 (by decide)).symm
theorem hF1_2 (ok : OutsOk m outs) (c : Dev nD) : (dat1 (E3 m outs) c).arrAt 2 cfg1.N = E4 m outs c main_v4 :=
  (ok.h4 c).symm.trans (Function.update_self (Proc.devRef .tc main_v4 : DevRef τ sig) (outs 4 main_v4 c) (V3 m outs c)).symm
theorem hrest1 (c : Dev nD) : ∀ b, b ∉ Finset.univ.image (Pipeline.arrRef spec1) → E4 m outs c b = E3 m outs c b :=
  fun b hb => V4_of m outs c b (fun h => hb (by
    rw [List.mem_singleton] at h; subst h
    exact Finset.mem_image.mpr ⟨2, Finset.mem_univ _, rfl⟩))

set_option backward.isDefEq.respectTransparency.types false in
/-- THE PAIRWISE CALL as a segment. -/
def reg1 (ok : OutsOk m outs) : Pipeline.RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (E3 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := Pipeline.UD sig nD τ) (Lvl := ℕ) spec1 c (E3 m outs c)
  hentry c := by
    rw [Pipeline.ownSems0_none]
    have hsplit := entry1 (m := m) (outs := outs) c (E3 m outs c) ((pdats m outs 1 c).arrAt · 0) rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (m := m) (outs := outs) c (E3 m outs c) (E4 m outs c) ((pdats m outs 1 c).arrAt · cfg1.N)
      (hF1_0 c) (hF1_1 c) (hF1_2 ok c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.FrameKernel.Run.lean ====
/-
  The run of the whole program with nothing left unknown. What the projection call leaves in its output array is
  what the pipeline computes from its proof data (its one block written back); likewise the pairwise call (its four
  blocks, each written back after its last j). With those two arrays put for the unknowns, the fold through @main
  describes every final memory: the result buffer holds the concatenation of the first argument with the pairwise
  call's array, and both arguments are as launched.
-/
import proofs.«147698_j2860448219172_1_alg».proof.Proof.FrameKernel.Segs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ)

/-- What the projection call leaves in its output array. -/
def X2 (c : Dev nD) : Buf (Elt F) ((c : Thread nD τ).loc main_v2) := (dat0 (E1 m) c).arrAt 2 cfg0.N
/-- The unknowns with only the first filled in (the second call's entry contents read no other). -/
def outs₂ : Outs (F := F) := fun _ r c => Function.update (V0 m c) (Proc.devRef .tc main_v2) (X2 m c) (Proc.devRef .tc r)
/-- What the pairwise call leaves in its output array. -/
def X4 (c : Dev nD) : Buf (Elt F) ((c : Thread nD τ).loc main_v4) := (dat1 (E3 m (outs₂ m)) c).arrAt 2 cfg1.N
/-- Both unknowns filled in. -/
def theOuts : Outs (F := F) := fun J r c =>
  if J = 2 then outs₂ m J r c else Function.update (V0 m c) (Proc.devRef .tc main_v4) (X4 m c) (Proc.devRef .tc r)

theorem outs₂_2 (c : Dev nD) : outs₂ m 2 main_v2 c = X2 m c := by
  unfold outs₂; rw [Function.update_self]
theorem theOuts_2 (c : Dev nD) : theOuts m 2 main_v2 c = X2 m c := by
  unfold theOuts; rw [if_pos rfl]; exact outs₂_2 m c
theorem theOuts_4 (c : Dev nD) : theOuts m 4 main_v4 c = X4 m c := by
  unfold theOuts; rw [if_neg (by decide), Function.update_self]

/-- The pairwise call is entered from the same contents under either filling: they read only the first unknown. -/
theorem E3_theOuts : E3 m (theOuts m) = E3 m (outs₂ m) := by
  funext c b
  show StableHlo.after hostOps1 (Function.update (V1 m c) (Proc.devRef .tc main_v2) (theOuts m 2 main_v2 c)) (Proc.devRef .tc b)
    = StableHlo.after hostOps1 (Function.update (V1 m c) (Proc.devRef .tc main_v2) (outs₂ m 2 main_v2 c)) (Proc.devRef .tc b)
  rw [theOuts_2, outs₂_2]

theorem theOuts_ok : OutsOk m (theOuts m) where
  h2 c := theOuts_2 m c
  h4 c := (theOuts_4 m c).trans (congrArg (fun E => (dat1 E c).arrAt 2 cfg1.N) (E3_theOuts m).symm)

/-- What rides along makes itself at the launch, -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (BI.emp : sProp 𝕄)) c)) ∗ levAts L lv)
      ⊢ (|={Set.univ}=> bigSep Finset.univ (fun c : Dev nD => R (F := F) c) : sProp 𝕄) := by
  have h : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) ⊢ (R (F := F) c : sProp 𝕄) := fun c => by
    iintro ⟨-, HO, -, Hp, -⟩
    isplitl [Hp]; · iexists _; iexact Hp
    iexists ∅; iexact HO
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) := bigSep_mono fun c _ => h c
  iintro ⟨H, -⟩
  imodintro
  ihave H' := hm $$ H
  iexact H'

set_option backward.isDefEq.respectTransparency.types false in
/-- THE RUN, the result named: from any memory with zero counters every weakly fair execution of @main terminates,
    nothing faulting; the result buffer ends at the fold's last contents and both arguments end as launched. -/
theorem run (ρ : Dev nD → PrngReg) :
    θ_run defs (onTc (τ := τ) (main (F := F))) ⟨m, fun _ => 0, ρ⟩ (fun r => ∀ c : Dev nD,
      r.2.mem ((c.tc : Thread nD τ).loc main_v5) = V5 m (theOuts m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m embL () 𝒱₀ L lv (fun _ _ => rfl) ρ (theOuts m) (pdats m (theOuts m)) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c) (hE0 ρ) (fun c => by iintro ⟨-, H⟩; iexact H)
    (reg0 (theOuts_ok m)) (fun _ => .rfl) (fun _ => .rfl)
    (reg1 (theOuts_ok m)) (fun _ => .rfl) (fun _ => .rfl)

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.Hand

end
-- ==== Proof.FrameKernelIdeal.Reg0.lean ====
/- Region 0 of @main — the projection matmul's pallas_call (pipeline 0, kernel function cc0__matmul_kernel) — stated
   at a PARAMETER V, the buffer contents when the region is entered, and for any float instance.

   The grid has one point and every window's block is its whole array: window 0 is the left factor [512,512], window 1
   the right factor [512,1024], window 2 the product [512,1024]. At the point the body reads both factors whole, reads
   the product's buffer once (the value is not used) and stores, over the whole buffer, the product of the two factors
   it read. So after the body each factor's buffer holds what it held — the factor's array as the region found it —
   and the product's buffer holds one whole-rectangle piece: the matmul payload of the two factors' blocks.

   This module gives the pipeline's proof data with exactly that content and proves the body's obligation against it. -/
import proofs.«147698_j2860448219172_1_alg».proof.Proof.Gen.KernelIdeal.Launch
import proofs.«147698_j2860448219172_1_alg».proof.Proof.Gen.KernelIdeal.Skeleton
import proofs.«147698_j2860448219172_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Region0

-- the buffer contents when the region is entered
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds the window's block at every point, for any proof data whose array is the
    entry contents and whose body leaves the block in place: the window is whole, never cut, never idle. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each a whole rectangle -/

/-- The left factor's whole rectangle. -/
abbrev r0_0 : Rect S512x512 := Rect.unit (s := S512x512) ![0, 0] S512x512.size inb_S512x512_S512x512_0_0
/-- The whole rectangle of the right factor and of the product. -/
abbrev r0_1 : Rect S512x1024 := Rect.unit (s := S512x1024) ![0, 0] S512x1024.size inb_S512x1024_S512x1024_0_0

/-! ## What the body leaves in the product's buffer -/

/-- The product's buffer after the body, from the two factors' blocks: one store over the whole rectangle, of the
    matmul payload of the factors read whole. -/
def out0_2 (x0 : Vec F S512x512 .f32) (x1 : Vec F S512x1024 .f32) : Vec F S512x1024 .f32 :=
  View.canon [⟨r0_1, k0_pay1 (View.ld x0 r0_0) (View.ld x1 r0_1)⟩]

/-- The one store is the whole shape, so it covers the buffer (one block of the shape's own size). -/
theorem cover0_2 (p0 : Vec F S512x1024 .f32) (y : S512x1024.Idx) :
    ∃ pc ∈ ([⟨r0_1, p0⟩] : List (View.Piece (Elt F) S512x1024 .f32)), y ∈ pc.1.set :=
  View.cover_of_tiled [⟨r0_1, p0⟩] S512x1024.size (by rfl) y

/-! ## The body's triple -/

set_option maxHeartbeats 1000000 in
/-- The body on whole staging memrefs, the factors' at read contents x0, x1 and the product's at anything, runs to the
    continuation holding the factors' as they were and the product's at out0_2 x0 x1. -/
theorem sound_kernel0 (c : Dev nD) (E : Set ℕ) (i : grid0.Coords)
    (arg1 : Memref sig .tc .vmem S512x512 .f32) (harg1 : arg1.IsWhole)
    (arg2 : Memref sig .tc .vmem S512x1024 .f32) (harg2 : arg2.IsWhole)
    (arg3 : Memref sig .tc .vmem S512x1024 .f32) (harg3 : arg3.IsWhole)
    (x0 : Vec F S512x512 .f32) (x1 : Vec F S512x1024 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core c: the arrays as the region finds them; after the body each factor's buffer at
    its block and the product's at out0_2 of the two blocks; the invariant the scoped rest and the generator
    register, untouched; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each factor's staging buffer holds its block when the body is called. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the factors' memrefs hold their blocks, so the triple applies; the invariant and what the core
    owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.FrameKernelIdeal.Reg1Runs.lean ====
/-
  The pairwise-distance call (the second pallas_call), its body on any staging buffers. The grid is 4 x 4: the point
  (i, j) reads rows 128 i .. 128 i + 127 of the projected array through its first window and rows 128 j .. 128 j + 127
  of the SAME array through its second, and adds into the output block of rows 128 i .. the sums over the j-block.
  The body resets its output block when j = 0 and otherwise adds to what the point before left there, so it is run
  twice: once with the branch taken, once not. Everything here holds at any float instance.
-/
import proofs.«147698_j2860448219172_1_alg».proof.Proof.Gen.KernelIdeal.Launch
import proofs.«147698_j2860448219172_1_alg».proof.Proof.Gen.KernelIdeal.Skeleton
import proofs.«147698_j2860448219172_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

-- The buffer contents of a core when the call is entered: a parameter of everything below.
variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The i-block window's staging buffer holds its block at every point, fetched there or not (it is fetched when j = 0
    and its index does not move while j runs). -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The j-block window's staging buffer holds its block at every point. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The body's one branch: "j = 0", as the printed scalar chain over the grid coordinates. -/
abbrev cond1_0 (i : grid1.Coords) : Prop := (Scalar.cmpi .ne (Scalar.extui (Scalar.cmpi .eq (BitVec.ofNat 32 (i 1).val) 0#32)) 0#32) = 1#1
/-- Points are numbered i * 4 + j, so the branch is taken exactly at the points divisible by 4. -/
theorem hcond1_0 : ∀ t : Fin cfg1.N, cond1_0 (grid1.coords t) ↔ t.val % 4 = 0 :=
  (by decide +kernel : ∀ t : Fin grid1.N, cond1_0 (grid1.coords t) ↔ t.val % 4 = 0)

/-- One staging buffer of the output window, through which its contents are stated (the choice does not matter). -/
abbrev VO1_2 : View sig .tc .vmem S128x128 .f32 := (Memref.whole cc1_stg2_0 : Memref sig .tc .vmem S128x128 .f32).view
/-- Each window's current staging buffer at point `t`, as the pipeline passes it to the body. -/
abbrev ms1_0 (t : Fin cfg1.N) : Memref sig .tc .vmem S128x8x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x8x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S128x128 .f32 := win1_2.stage (cfg1.slots t 2)
abbrev hs1_2 (t : Fin cfg1.N) : (ms1_2 t).IsWhole := hstage1_2 ((cfg1.slots t 2).cast nbuf1_2)

set_option maxHeartbeats 1000000 in
/-- j = 0: the body zeroes its output block, reads the two input blocks, reads the zeroed block back and stores the
    block's new contents. The list is what its stores leave in the output buffer (last first), found by running it. -/
noncomputable def kernelRun1_A (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : cond1_0 i) (x0 : Vec F S128x8x128 .f32) (x1 : Vec F S128x8x128 .f32) :
    { L2 : List (View.Piece (Elt F) S128x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__pairwise_kernel i arg2 harg2 arg3 harg3 arg4 harg4) K } := by
  refine ⟨?_, fun E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%d2, %f2, -, H2⟩, Hk⟩
    obtain rfl := harg2.eq_unread hf0
    obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

set_option maxHeartbeats 1000000 in
/-- j > 0: the body reads the two input blocks and the output block as the point before left it (`xo`), and stores
    the block's new contents. -/
noncomputable def kernelRun1_B (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : ¬cond1_0 i) (x0 : Vec F S128x8x128 .f32) (x1 : Vec F S128x8x128 .f32) (xo : Vec F S128x128 .f32) :
    { L2 : List (View.Piece (Elt F) S128x128 .f32) //
      ∀ (E : Set ℕ) (K : PUnit → sProp 𝕄),
        iprop(owns (c : Thread nD τ) arg2 fullShare x0 ∗ owns (c : Thread nD τ) arg3 fullShare x1 ∗ owns (c : Thread nD τ) arg4 fullShare xo
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)) -∗ K ⟨⟩))
          ⊢ wp frame (wpE (defs₀ (F := F)) Variants.none c none) E (cc1__pairwise_kernel i arg2 harg2 arg3 harg3 arg4 harg4) K } := by
  refine ⟨?_, fun E K => ?run⟩
  case run =>
    simp only [cc1__pairwise_kernel_eq_skeleton]; unfold cc1__pairwise_kernel_skel
    simp only [k1_part1_eq_skeleton, k1_part2_eq_skeleton]
    unfold owns
    iintro ⟨⟨%f0, %hf0, H0⟩, ⟨%f1, %hf1, H1⟩, ⟨%f2, %hf2, H2⟩, Hk⟩
    obtain rfl := harg2.eq_unread hf0
    obtain rfl := harg3.eq_unread hf1
    obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Hand

end
-- ==== Proof.FrameKernelIdeal.Reg1.lean ====
/-
  The pairwise-distance call: what its output block holds after each grid point, the pipeline's proof data, and the
  body's obligation at every point. The output block of rows 128 i .. is reset at (i, 0), added to at (i, 1..3) and
  written back after (i, 3); between those points its staging buffer keeps what the point before left. The two input
  windows read ONE array, so each holds half of it.
-/
import proofs.«147698_j2860448219172_1_alg».proof.Proof.FrameKernelIdeal.Reg1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- With j = 0 the body's stores cover the output block. -/
theorem cover1_A_2 (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : cond1_0 i) (x0 : Vec F S128x8x128 .f32) (x1 : Vec F S128x8x128 .f32) (y : S128x128.Idx) :
    ∃ pc ∈ (kernelRun1_A c i arg2 harg2 arg3 harg3 arg4 harg4 hc0 x0 x1).1, y ∈ pc.1.set :=
  View.cover_of_tiledL (kernelRun1_A c i arg2 harg2 arg3 harg3 arg4 harg4 hc0 x0 x1).1 S128x128.size (by sl_kernel_rfl) y

/-- What the body leaves in the output block when j = 0: its stores read back. -/
def out1_A_2 (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : cond1_0 i) (x0 : Vec F S128x8x128 .f32) (x1 : Vec F S128x8x128 .f32) : Vec F S128x128 .f32 :=
  VO1_2.read (Elt F) (VO1_2.writes (Elt F) VO1_2.junk (kernelRun1_A c i arg2 harg2 arg3 harg3 arg4 harg4 hc0 x0 x1).1)

/-- With j > 0 the body's one store covers the output block. -/
theorem cover1_B_2 (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : ¬cond1_0 i) (x0 : Vec F S128x8x128 .f32) (x1 : Vec F S128x8x128 .f32) (xo : Vec F S128x128 .f32) (y : S128x128.Idx) :
    ∃ pc ∈ (kernelRun1_B c i arg2 harg2 arg3 harg3 arg4 harg4 hc0 x0 x1 xo).1, y ∈ pc.1.set :=
  View.cover_of_tiledL (kernelRun1_B c i arg2 harg2 arg3 harg3 arg4 harg4 hc0 x0 x1 xo).1 S128x128.size (by sl_kernel_rfl) y

/-- What the body leaves in the output block when j > 0, from what it found there (`xo`). -/
def out1_B_2 (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : ¬cond1_0 i) (x0 : Vec F S128x8x128 .f32) (x1 : Vec F S128x8x128 .f32) (xo : Vec F S128x128 .f32) : Vec F S128x128 .f32 :=
  VO1_2.read (Elt F) (VO1_2.writes (Elt F) VO1_2.junk (kernelRun1_B c i arg2 harg2 arg3 harg3 arg4 harg4 hc0 x0 x1 xo).1)

/-- THE ACCUMULATION: what the output's staging buffer holds after the body at position `n` — at a point with j = 0
    the reset-and-add of that point's two input blocks, otherwise the add over what position `n - 1` left. -/
def outsAt1 (c : Dev nD) : (n : ℕ) → n < cfg1.N → Vec F S128x128 .f32
  | 0, hn => out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩)
      ((hcond1_0 ⟨0, hn⟩).mpr (Nat.zero_mod _)) (iblk1 V c 0 ⟨0, hn⟩) (iblk1 V c 1 ⟨0, hn⟩)
  | n + 1, hn =>
    if h0 : (n + 1) % 4 = 0 then
      out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        ((hcond1_0 ⟨n + 1, hn⟩).mpr h0) (iblk1 V c 0 ⟨n + 1, hn⟩) (iblk1 V c 1 ⟨n + 1, hn⟩)
    else
      out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩)
        (fun h => h0 ((hcond1_0 ⟨n + 1, hn⟩).mp h)) (iblk1 V c 0 ⟨n + 1, hn⟩) (iblk1 V c 1 ⟨n + 1, hn⟩) (outsAt1 c n (Nat.lt_of_succ_lt hn))

/-- At a point with j = 0. -/
theorem outsAt1_A (c : Dev nD) (t : Fin cfg1.N) (h0 : t.val % 4 = 0) :
    outsAt1 V c t.val t.isLt = out1_A_2 c (grid1.coords t) (ms1_0 t) (hs1_0 t) (ms1_1 t) (hs1_1 t) (ms1_2 t) (hs1_2 t) ((hcond1_0 t).mpr h0) (iblk1 V c 0 t) (iblk1 V c 1 t) := by
  obtain ⟨n, hn⟩ := t
  cases n with
  | zero => exact rfl
  | succ n => exact (dif_pos h0).trans rfl

/-- At a point with j > 0: over what the point before left. -/
theorem outsAt1_B (c : Dev nD) (t : Fin cfg1.N) (h0 : ¬t.val % 4 = 0) :
    outsAt1 V c t.val t.isLt = out1_B_2 c (grid1.coords t) (ms1_0 t) (hs1_0 t) (ms1_1 t) (hs1_1 t) (ms1_2 t) (hs1_2 t) (fun h => h0 ((hcond1_0 t).mp h)) (iblk1 V c 0 t) (iblk1 V c 1 t)
      (outsAt1 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The proof data of the call on core `c`: the arrays as the call finds them; after the body each input's buffer at its
    block and the output's at `outsAt1`; the invariant is the untouched rest (the other call's staging buffers and the
    generator register); nothing owed; the projected array is read by both input windows, each at one half of it. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- At a point with j > 0 the output's staging buffer holds what the body left at the point before: the point is not the
    first, and the block is written back only after j = 3. -/
theorem before1_2_B (c : Dev nD) (t : Fin cfg1.N) (h0 : ¬t.val % 4 = 0) (d) :
    (dat1 V c).before 2 t d = (outsAt1 V c (t.val - 1) (Nat.lt_of_le_of_lt (Nat.sub_le _ _) t.isLt)) := by
  have hN : t.val < 16 := lt_of_lt_of_eq t.isLt (show cfg1.N = 16 from N_1)
  rw [Dat.before_out_kept _ 2 rfl t (by omega) (Bool.eq_false_iff.mpr fun h => by have := (flush1_2 _).mp h; dsimp only at this; omega)
    (fun _ => rfl) (fun _ _ => rfl)]
  dsimp only [dat1]

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t))

set_option maxHeartbeats 800000 in
/-- The body at any point: the inputs' buffers hold their blocks; the point's j says which run applies; with j > 0 the
    output's buffer holds what the point before left; the invariant passes through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  by_cases h0 : t.val % 4 = 0
  · rw [outsAt1_A V c t h0]
    unfold out1_A_2
    iintro ⟨HΦ, Ho, ⟨%d0, H0⟩, ⟨%d1, H1⟩, ⟨%d2, H2⟩⟩
    iapply ((kernelRun1_A c (grid1.coords t) _ _ _ _ _ _ ((hcond1_0 t).mpr h0) (iblk1 V c 0 t) (iblk1 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_A_2 c _ _ _ _ _ _ _ _ _ _)
  · rw [outsAt1_B V c t h0]
    simp only [before1_2_B V c t h0]
    unfold out1_B_2
    iintro ⟨HΦ, Ho, ⟨%d0, H0⟩, ⟨%d1, H1⟩, ⟨%d2, H2⟩⟩
    iapply ((kernelRun1_B c (grid1.coords t) _ _ _ _ _ _ (fun h => h0 ((hcond1_0 t).mp h)) (iblk1 V c 0 t) (iblk1 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover1_B_2 c _ _ _ _ _ _ _ _ _ _ _)

/-- The body obligation of the call, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameKernelIdeal.RunCond.lean ====
/-
  The whole program's run, given one record per kernel call: @main is transpose, reshape, the projection call, a reshape,
  the pairwise call, and the concatenation. Every weakly fair execution terminates; the final memory holds the two
  arguments as launched and the result buffer at the last valuation of the fold through those six items, in which what
  the two calls leave in their output arrays stands as an unknown (`outs`). The frame claim is this with the result
  forgotten.
-/
import proofs.«147698_j2860448219172_1_alg».proof.Proof.Gen.KernelIdeal.Regions

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

variable (m : (ℓ : Loc nD τ sig) → Buf (Elt F) ℓ)

set_option backward.isDefEq.respectTransparency.types false in
/-- The run with the result named: as the conditional frame, and the result buffer `main_v5` ends at the last
    valuation's contents (the concatenation of the first argument with what the pairwise call left). -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 2) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 3 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE2 : ∀ c : Dev nD, E 2 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c)) :
    θ_run defs (onTc (τ := τ) (main (F := F))) ⟨m, fun _ => 0, ρ⟩ (fun r => ∀ c : Dev nD,
      r.2.mem ((c.tc : Thread nD τ).loc main_v5) = V5 m outs c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine Pipeline.θ_run_regions_kit_dev (pcfgs (F := F)) adm pdats ι cellOf_inj EP defs₀ 𝒱₀ L lv m ρ main
    (segs m outs 𝒱₀ L lv E ι pdats R0 R1)
    (fun c Q => by
      rewrite [main_chain c, Seg.run_eq_chain,
        show (segs m outs 𝒱₀ L lv E ι pdats R0 R1 c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V5 m outs c))
    (hch := fun c => ⟨.rfl, hpre0 c, hpost0 c, hpre1 c, hpost1 c, sep_mono .rfl (hE2 c)⟩)
    (hinit := ?_) (QY := fun c s => s.mem ((c.tc : Thread nD τ).loc main_v5) = V5 m outs c main_v5
      ∧ s.mem ((c.tc : Thread nD τ).loc main_arg0) = m ((c.tc : Thread nD τ).loc main_arg0) ∧ s.mem ((c.tc : Thread nD τ).loc main_arg1) = m ((c.tc : Thread nD τ).loc main_arg1))
    (hfin := fun c s' => ?_) (hQ := fun _ h => h)
  · -- the launch: the unscoped buffers are held at the launch contents; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the result and each argument read off the last valuation
    unfold StableHlo.held
    iintro ⟨Hh, HSI⟩
    ihave Hr := (pointsTo_read_all (Pipeline.ucRefs τ sig) (fun b => ((c : Thread nD τ).1, b)) (V5 m outs c) s') $$ [Hh HSI]
    · isplitl [Hh] <;> iassumption
    icases Hr with ⟨%h, HSI⟩
    imodintro
    isplitr
    · ipureintro
      exact ⟨h (Proc.devRef .tc main_v5) (Finset.mem_filter.mpr ⟨StableHlo.devRef_mem_tcRefs main_v5, by decide⟩),
        (h (Proc.devRef .tc main_arg0) (Finset.mem_filter.mpr ⟨StableHlo.devRef_mem_tcRefs main_arg0, by decide⟩)).trans (V5_main_arg0 m outs c),
        (h (Proc.devRef .tc main_arg1) (Finset.mem_filter.mpr ⟨StableHlo.devRef_mem_tcRefs main_arg1, by decide⟩)).trans (V5_main_arg1 m outs c)⟩
    · iexact HSI

end Cert.KernelIdeal.Hand

end
-- ==== Proof.FrameKernelIdeal.Segs.lean ====
/-
  The two kernel calls as segments of @main. Between two items a core holds every unscoped buffer whole, at the
  contents the fold through @main gives it, beside the generator register and an empty debt. A call takes its windows'
  arrays out of those buffers when it is entered and puts them back, at what its write-backs leave, when it returns.
  The projection call's three arrays are distinct buffers. The pairwise call reads ONE array (the projected array,
  reshaped) through two windows: on entry that buffer's points-to is cut into two halves, one per window, and on
  return the halves — still at the same contents, an input is never written — are joined again.
-/
import proofs.«147698_j2860448219172_1_alg».proof.Proof.FrameKernelIdeal.Reg0
import proofs.«147698_j2860448219172_1_alg».proof.Proof.FrameKernelIdeal.Reg1
import proofs.«147698_j2860448219172_1_alg».proof.Proof.FrameKernelIdeal.RunCond
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (outs : Outs (F := F))

/-- The contents of a core's buffers when the projection call is entered, when it returns, when the pairwise call is
    entered and when it returns, read at the TensorCore's references. -/
abbrev E1 : (c : Dev nD) → (b : Ref sig .tc) → Buf (Elt F) ((c : Thread nD τ).loc b) := fun c b => V1 m c b
abbrev E2 : (c : Dev nD) → (b : Ref sig .tc) → Buf (Elt F) ((c : Thread nD τ).loc b) := fun c b => V2 m outs c b
abbrev E3 : (c : Dev nD) → (b : Ref sig .tc) → Buf (Elt F) ((c : Thread nD τ).loc b) := fun c b => V3 m outs c b
abbrev E4 : (c : Dev nD) → (b : Ref sig .tc) → Buf (Elt F) ((c : Thread nD τ).loc b) := fun c b => V4 m outs c b

/-- Each call's proof data at its own entry contents. -/
def pdats : (p : Fin 2) → (c : Dev nD) → Dat τ (Elt F) Unit ℕ (Pipeline.UD sig nD τ) ℕ (cfgs p) c
  | ⟨0, _⟩ => fun c => dat0 (E1 m) c
  | ⟨1, _⟩ => fun c => dat1 (E3 m outs) c

abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)

/-- What the unknown `outs` must be for the fold to describe the run: each call's output array at what its write-backs
    leave. -/
structure OutsOk : Prop where
  h2 : ∀ c : Dev nD, outs 2 main_v2 c = (dat0 (E1 m) c).arrAt 2 cfg0.N
  h4 : ∀ c : Dev nD, outs 4 main_v4 c = (dat1 (E3 m outs) c).arrAt 2 cfg1.N

variable {m outs}

/-- When the projection call returns, each of its arrays holds what the fold says: the two inputs what they held, the
    output the unknown. -/
theorem hF0 (ok : OutsOk m outs) (c : Dev nD) : ∀ w : Fin cfg0.W, (dat0 (E1 m) c).arrAt w cfg0.N = E2 m outs c (Pipeline.arrRef spec0 w)
  | ⟨0, _⟩ => (((dat0 (E1 m) c).arrAt_in 0 rfl _).trans (A_eq0 (E1 m) c 0)).trans (V2_of m outs c main_arg0 (by decide)).symm
  | ⟨1, _⟩ => (((dat0 (E1 m) c).arrAt_in 1 rfl _).trans (A_eq0 (E1 m) c 1)).trans (V2_of m outs c main_v1 (by decide)).symm
  | ⟨2, _⟩ => (ok.h2 c).symm.trans (Function.update_self (Proc.devRef .tc main_v2 : DevRef τ sig) (outs 2 main_v2 c) (V1 m c)).symm
theorem hrest0 (c : Dev nD) : ∀ b, b ∉ Finset.univ.image (Pipeline.arrRef spec0) → E2 m outs c b = E1 m c b :=
  fun b hb => V2_of m outs c b (fun h => hb (by
    rw [List.mem_singleton] at h; subst h
    exact Finset.mem_image.mpr ⟨2, Finset.mem_univ _, rfl⟩))

set_option backward.isDefEq.respectTransparency.types false in
/-- THE PROJECTION CALL as a segment. -/
def reg0 (ok : OutsOk m outs) : Pipeline.RegionSeg (pcfgs (F := F)) adm (pdats m outs) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m outs c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m c)
  hentry c := by
    rw [Pipeline.ownSems0_none]
    have hsplit := Pipeline.arrays_of_unscopedBufs (p := 0) (pcfgs (F := F)) adm (pdats m outs) launch0.win launch0.arr_whole c
      ((pdats m outs 0 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m outs 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m outs) ((pdats m outs 0 c).share_full fun _ => rfl)
      (E1 m c) (E2 m outs c) ((pdats m outs 0 c).arrAt · cfg0.N) (hF0 ok c) (hrest0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pairwise call -/

/-- The call's arrays, window by window: the projected array at one half for each input window, the output array whole. -/
theorem arrays1_eq (c : Dev nD) (G : (w : Fin cfg1.W) → Buf (Elt F) ((cfg1.win w).arr.view.loc (c.tc : Thread nD τ))) :
    ((pdats m outs 1 c).arrays G : sProp 𝕄)
      = iprop((((c.tc : Thread nD τ).loc (Pipeline.arrRef spec1 0)) ↦{fullShare.left} G 0)
          ∗ (((c.tc : Thread nD τ).loc (Pipeline.arrRef spec1 1)) ↦{fullShare.right} G 1)
          ∗ (((c.tc : Thread nD τ).loc (Pipeline.arrRef spec1 2)) ↦{fullShare} G 2)) := by
  unfold Dat.arrays
  have e0 : ((cfgs (1 : Fin 2)).win 0).arr.view.set = Finset.univ := (arr_whole1 0).set_eq_univ
  have e1 : ((cfgs (1 : Fin 2)).win 1).arr.view.set = Finset.univ := (arr_whole1 1).set_eq_univ
  have e2 : ((cfgs (1 : Fin 2)).win 2).arr.view.set = Finset.univ := (arr_whole1 2).set_eq_univ
  rw [bigSep_W1, e0, e1, e2]
  rfl

/-- The distinct buffers behind the call's arrays: the projected array and the output array. -/
theorem arrBufs1_eq (c : Dev nD) (W : (b : Ref sig .tc) → Buf (Elt F) ((c.tc : Thread nD τ).loc b)) :
    (Pipeline.arrBufs (Ix := Unit) (Name := ℕ) (U := Pipeline.UD sig nD τ) (Lvl := ℕ) spec1 c W : sProp 𝕄)
      = iprop((((c.tc : Thread nD τ).loc main_v3) ↦{fullShare} W main_v3) ∗ (((c.tc : Thread nD τ).loc main_v4) ↦{fullShare} W main_v4)) := by
  unfold Pipeline.arrBufs
  rw [BI.bigSep_eq_bigSepL_of_eq [main_v3, main_v4] (by decide) (by decide)]
  rfl

/-- ENTRY: a core's unscoped buffers are the call's arrays — the projected array's points-to cut in two halves — and the rest. -/
theorem entry1 (c : Dev nD) (W : (b : Ref sig .tc) → Buf (Elt F) ((c.tc : Thread nD τ).loc b))
    (G : (w : Fin cfg1.W) → Buf (Elt F) ((cfg1.win w).arr.view.loc (c.tc : Thread nD τ)))
    (h0 : G 0 = W main_v3) (h1 : G 1 = W main_v3) (h2 : G 2 = W main_v4) :
    (unscopedBufs (Ix := Unit) (Name := ℕ) (U := Pipeline.UD sig nD τ) (Lvl := ℕ) c W : sProp 𝕄)
      ⊢ iprop((pdats m outs 1 c).arrays G ∗ Pipeline.unscopedRest spec1 c W) := by
  have hs : (unscopedBufs (Ix := Unit) (Name := ℕ) (U := Pipeline.UD sig nD τ) (Lvl := ℕ) c W : sProp 𝕄)
      = iprop(Pipeline.arrBufs spec1 c W ∗ Pipeline.unscopedRest spec1 c W) :=
    Pipeline.unscopedBufs_split₀ cfgs (1 : Fin 2) winFacts₀1.arr_unscoped c W
  rw [hs, arrays1_eq, arrBufs1_eq, h0, h1, h2]
  refine sep_mono ?_ .rfl
  iintro ⟨H3, H4⟩
  ihave H := (pointsTo_share (PosShare.mem_left_op_right fullShare)).1 $$ H3
  icases H with ⟨Ha, Hb⟩
  isplitl [Ha]; · iexact Ha
  isplitl [Hb]; · iexact Hb
  iexact H4

/-- EXIT: the call's arrays — the two halves of the projected array at one contents — and the rest are the core's
    unscoped buffers at any valuation that has the arrays at those contents and agrees with the old one elsewhere. -/
theorem exit1 (c : Dev nD) (W W' : (b : Ref sig .tc) → Buf (Elt F) ((c.tc : Thread nD τ).loc b))
    (G : (w : Fin cfg1.W) → Buf (Elt F) ((cfg1.win w).arr.view.loc (c.tc : Thread nD τ)))
    (h0 : G 0 = W' main_v3) (h1 : G 1 = W' main_v3) (h2 : G 2 = W' main_v4)
    (hrest : ∀ b, b ∉ Finset.univ.image (Pipeline.arrRef spec1) → W' b = W b) :
    iprop((pdats m outs 1 c).arrays G ∗ Pipeline.unscopedRest spec1 c W)
      ⊢ (unscopedBufs (Ix := Unit) (Name := ℕ) (U := Pipeline.UD sig nD τ) (Lvl := ℕ) c W' : sProp 𝕄) := by
  have hs : (unscopedBufs (Ix := Unit) (Name := ℕ) (U := Pipeline.UD sig nD τ) (Lvl := ℕ) c W' : sProp 𝕄)
      = iprop(Pipeline.arrBufs spec1 c W' ∗ Pipeline.unscopedRest spec1 c W') :=
    Pipeline.unscopedBufs_split₀ cfgs (1 : Fin 2) winFacts₀1.arr_unscoped c W'
  rw [hs, arrays1_eq, arrBufs1_eq, h0, h1, h2]
  refine sep_mono ?_ (Entails.of_eq ?_)
  · iintro ⟨Ha, Hb, H4⟩
    isplitl [Ha Hb]
    · iapply (pointsTo_share (PosShare.mem_left_op_right fullShare)).2
      isplitl [Ha]; · iexact Ha
      iexact Hb
    iexact H4
  · unfold Pipeline.unscopedRest
    exact bigSep_congr fun b hb => by rw [hrest b (Finset.mem_sdiff.mp hb).2]

/-- When the pairwise call returns its arrays hold what the fold says: the projected array what it held, the output the unknown. -/
theorem hF1_0 (c : Dev nD) : (dat1 (E3 m outs) c).arrAt 0 cfg1.N = E4 m outs c main_v3 :=
  (((dat1 (E3 m outs) c).arrAt_in 0 rfl _).trans (A_eq1 (E3 m outs) c 0)).trans (V4_of m outs c main_v3 (by decide)).symm
theorem hF1_1 (c : Dev nD) : (dat1 (E3 m outs) c).arrAt 1 cfg1.N = E4 m outs c main_v3 :=
  (((dat1 (E3 m outs) c).arrAt_in 1 rfl _).trans (A_eq1 (E3 m outs) c 1)).trans (V4_of m outs c main_v3 (by decide)).symm
theorem hF1_2 (ok : OutsOk m outs) (c : Dev nD) : (dat1 (E3 m outs) c).arrAt 2 cfg1.N = E4 m outs c main_v4 :=
  (ok.h4 c).symm.trans (Function.update_self (Proc.devRef .tc main_v4 : DevRef τ sig) (outs 4 main_v4 c) (V3 m outs c)).symm
theorem hrest1 (c : Dev nD) : ∀ b, b ∉ Finset.univ.image (Pipeline.arrRef spec1) → E4 m outs c b = E3 m outs c b :=
  fun b hb => V4_of m outs c b (fun h => hb (by
    rw [List.mem_singleton] at h; subst h
    exact Finset.mem_image.mpr ⟨2, Finset.mem_univ _, rfl⟩))

set_option backward.isDefEq.respectTransparency.types false in
/-- THE PAIRWISE CALL as a segment. -/
def reg1 (ok : OutsOk m outs) : Pipeline.RegionSeg (pcfgs (F := F)) adm (pdats m outs) () defs₀ 𝒱₀ L lv 1 where
  win := winFacts₀1
  block_pos := block_pos1
  stage_whole := stage_whole1
  K := PEmpty
  osem k := k.elim
  ho := Pipeline.OwnSemFacts.none _
  hbody c := (body_obligation1 (E3 m outs) c).loose
  hwaits := Pipeline.hwaits_of_owed_zero _ _ _ _ L lv 1 fun _ _ => rfl
  pre c := iprop(StableHlo.held (c : Thread nD τ) (Pipeline.ucRefs τ sig) (V3 m outs c) ∗ R c)
  post c := iprop(StableHlo.held (c : Thread nD τ) (Pipeline.ucRefs τ sig) (V4 m outs c) ∗ R c)
  X c := iprop(∃ r, prngReg c r)
  Y c := iprop(∃ r, prngReg c r)
  Z c := Pipeline.unscopedRest (Ix := Unit) (Name := ℕ) (U := Pipeline.UD sig nD τ) (Lvl := ℕ) spec1 c (E3 m outs c)
  hentry c := by
    rw [Pipeline.ownSems0_none]
    have hsplit := entry1 (m := m) (outs := outs) c (E3 m outs c) ((pdats m outs 1 c).arrAt · 0) rfl rfl rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m outs 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m outs 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1 (m := m) (outs := outs) c (E3 m outs c) (E4 m outs c) ((pdats m outs 1 c).arrAt · cfg1.N)
      (hF1_0 c) (hF1_1 c) (hF1_2 ok c) (hrest1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.FrameKernelIdeal.Run.lean ====
/-
  The run of the whole program with nothing left unknown. What the projection call leaves in its output array is
  what the pipeline computes from its proof data (its one block written back); likewise the pairwise call (its four
  blocks, each written back after its last j). With those two arrays put for the unknowns, the fold through @main
  describes every final memory: the result buffer holds the concatenation of the first argument with the pairwise
  call's array, and both arguments are as launched.
-/
import proofs.«147698_j2860448219172_1_alg».proof.Proof.FrameKernelIdeal.Segs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-- What the projection call leaves in its output array. -/
def X2 (c : Dev nD) : Buf (Elt F) ((c : Thread nD τ).loc main_v2) := (dat0 (E1 m) c).arrAt 2 cfg0.N
/-- The unknowns with only the first filled in (the second call's entry contents read no other). -/
def outs₂ : Outs (F := F) := fun _ r c => Function.update (V0 m c) (Proc.devRef .tc main_v2) (X2 m c) (Proc.devRef .tc r)
/-- What the pairwise call leaves in its output array. -/
def X4 (c : Dev nD) : Buf (Elt F) ((c : Thread nD τ).loc main_v4) := (dat1 (E3 m (outs₂ m)) c).arrAt 2 cfg1.N
/-- Both unknowns filled in. -/
def theOuts : Outs (F := F) := fun J r c =>
  if J = 2 then outs₂ m J r c else Function.update (V0 m c) (Proc.devRef .tc main_v4) (X4 m c) (Proc.devRef .tc r)

theorem outs₂_2 (c : Dev nD) : outs₂ m 2 main_v2 c = X2 m c := by
  unfold outs₂; rw [Function.update_self]
theorem theOuts_2 (c : Dev nD) : theOuts m 2 main_v2 c = X2 m c := by
  unfold theOuts; rw [if_pos rfl]; exact outs₂_2 m c
theorem theOuts_4 (c : Dev nD) : theOuts m 4 main_v4 c = X4 m c := by
  unfold theOuts; rw [if_neg (by decide), Function.update_self]

/-- The pairwise call is entered from the same contents under either filling: they read only the first unknown. -/
theorem E3_theOuts : E3 m (theOuts m) = E3 m (outs₂ m) := by
  funext c b
  show StableHlo.after hostOps1 (Function.update (V1 m c) (Proc.devRef .tc main_v2) (theOuts m 2 main_v2 c)) (Proc.devRef .tc b)
    = StableHlo.after hostOps1 (Function.update (V1 m c) (Proc.devRef .tc main_v2) (outs₂ m 2 main_v2 c)) (Proc.devRef .tc b)
  rw [theOuts_2, outs₂_2]

theorem theOuts_ok : OutsOk m (theOuts m) where
  h2 c := theOuts_2 m c
  h4 c := (theOuts_4 m c).trans (congrArg (fun E => (dat1 E c).arrAt 2 cfg1.N) (E3_theOuts m).symm)

/-- What rides along makes itself at the launch, -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (BI.emp : sProp 𝕄)) c)) ∗ levAts L lv)
      ⊢ (|={Set.univ}=> bigSep Finset.univ (fun c : Dev nD => R (F := F) c) : sProp 𝕄) := by
  have h : ∀ c : Dev nD, iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) ⊢ (R (F := F) c : sProp 𝕄) := fun c => by
    iintro ⟨-, HO, -, Hp, -⟩
    isplitl [Hp]; · iexists _; iexact Hp
    iexists ∅; iexact HO
  have hm : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)))
      ⊢ (bigSep Finset.univ (fun c : Dev nD => R (F := F) c) : sProp 𝕄) := bigSep_mono fun c _ => h c
  iintro ⟨H, -⟩
  imodintro
  ihave H' := hm $$ H
  iexact H'

set_option backward.isDefEq.respectTransparency.types false in
/-- THE RUN, the result named: from any memory with zero counters every weakly fair execution of @main terminates,
    nothing faulting; the result buffer ends at the fold's last contents and both arguments end as launched. -/
theorem run (ρ : Dev nD → PrngReg) :
    θ_run defs (onTc (τ := τ) (main (F := F))) ⟨m, fun _ => 0, ρ⟩ (fun r => ∀ c : Dev nD,
      r.2.mem ((c.tc : Thread nD τ).loc main_v5) = V5 m (theOuts m) c main_v5
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  run_cond m embL () 𝒱₀ L lv (fun _ _ => rfl) ρ (theOuts m) (pdats m (theOuts m)) 0 (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (fun _ c => R c) (hE0 ρ) (fun c => by iintro ⟨-, H⟩; iexact H)
    (reg0 (theOuts_ok m)) (fun _ => .rfl) (fun _ => .rfl)
    (reg1 (theOuts_ok m)) (fun _ => .rfl) (fun _ => .rfl)

/-- THE FRAME: the run with the result forgotten. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Hand

end
-- ==== Proof.HostGlue.lean ====
/- The host side of @main between and around its two pallas_calls, read buffer by buffer: for ANY launch memory m and ANY
   contents outs the two regions leave, what the host operations make of them.

   Before the first call the right factor is the transpose (axes 0, 2, 1) of the second argument, reshaped to
   [512, 1024]; the left factor is the first argument untouched. Between the calls the product [512, 1024] is reshaped to
   [512, 8, 128]. After the second call the result is the first argument and the features array concatenated along
   axis 1. Each statement is one host stretch read at the buffer it writes, first over an arbitrary valuation W and then
   at the valuation the program has there. -/
import proofs.«147698_j2860448219172_1_alg».proof.Proof.Gen.KernelIdeal.Regions
import Idealize.ShloMosaic.Lib.StableHlo.Run

noncomputable section

namespace Cert.KernelIdeal.HandValue

open Cert.KernelIdeal Cert.KernelIdeal.Gen
open Idealize.ShloMosaic Idealize.ShloMosaic.TcCoe Idealize.ShloMosaic.StableHlo Idealize.SL.Sem

variable {F : FTy → Type} [FloatOps F]

/-! ## Each host stretch at the buffer it writes, over any valuation -/

section AnyValuation

variable (W : Valuation τ sig (Elt F))

/-- The first stretch leaves in main_v1 the transpose of main_arg1 reshaped to [512, 1024]. -/
theorem after0_v1 :
    StableHlo.after (hostOps0 (F := F)) W (Proc.devRef .tc main_v1)
      = shapeCast S512x1024 (transpose S512x8x128 [0, 2, 1] (W (Proc.devRef .tc main_arg1)) transposes_S512x128x8_S512x8x128_0_2_1) shapeCasts_S512x8x128_S512x1024 := by
  after_results
  rfl

/-- The second stretch leaves in main_v3 the product main_v2 reshaped to [512, 8, 128]. -/
theorem after1_v3 :
    StableHlo.after (hostOps1 (F := F)) W (Proc.devRef .tc main_v3)
      = shapeCast S512x8x128 (W (Proc.devRef .tc main_v2)) shapeCasts_S512x1024_S512x8x128 := by
  after_results
  rfl

/-- The last stretch leaves in main_v5 the concatenation along axis 1 of main_arg0 and main_v4. -/
theorem after2_v5 :
    StableHlo.after (hostOps2 (F := F)) W (Proc.devRef .tc main_v5)
      = concatenate S512x640 1 [⟨S512x512, W (Proc.devRef .tc main_arg0)⟩, ⟨S512x128, W (Proc.devRef .tc main_v4)⟩] concatenates_S512x512_S512x128_S512x640_d1 := by
  after_results

end AnyValuation

/-! ## At the program's valuations -/

variable (m : (ℓ : Loc nD τ sig) → Buf (Elt F) ℓ) (outs : Outs (F := F))

/-- (g1) The program's result: the first argument and the features array, concatenated along axis 1. -/
theorem V5_main_v5 (c : Dev nD) :
    V5 m outs c main_v5
      = concatenate S512x640 1 [⟨S512x512, V4 m outs c main_arg0⟩, ⟨S512x128, V4 m outs c main_v4⟩] concatenates_S512x512_S512x128_S512x640_d1 :=
  after2_v5 (V4 m outs c)

/-- (g2) The first argument reaches the last stretch as launched. -/
theorem V4_main_arg0 (c : Dev nD) : V4 m outs c main_arg0 = m ((c : Thread nD τ).loc main_arg0) :=
  (V4_of m outs c main_arg0 (by decide)).trans <| (V3_of m outs c main_arg0 (by decide)).trans <|
    (V2_of m outs c main_arg0 (by decide)).trans <| (V1_of m c main_arg0 (by decide)).trans rfl

/-- (g3) The features array is what the second call leaves, -/
theorem V4_main_v4 (c : Dev nD) : V4 m outs c main_v4 = outs 4 main_v4 c :=
  Function.update_self (Proc.devRef .tc main_v4 : DevRef τ sig) _ _

/-- (g3) and the product array is what the first call leaves. -/
theorem V2_main_v2 (c : Dev nD) : V2 m outs c main_v2 = outs 2 main_v2 c :=
  Function.update_self (Proc.devRef .tc main_v2 : DevRef τ sig) _ _

/-- (g4) The second call reads the product reshaped to [512, 8, 128]. -/
theorem V3_main_v3 (c : Dev nD) :
    V3 m outs c main_v3 = shapeCast S512x8x128 (V2 m outs c main_v2) shapeCasts_S512x1024_S512x8x128 :=
  after1_v3 (V2 m outs c)

/-- (g5) The first call's right factor: the second argument transposed (axes 0, 2, 1) and reshaped to [512, 1024]. -/
theorem V1_main_v1 (c : Dev nD) :
    V1 m c main_v1
      = shapeCast S512x1024 (transpose S512x8x128 [0, 2, 1] (m ((c : Thread nD τ).loc main_arg1)) transposes_S512x128x8_S512x8x128_0_2_1) shapeCasts_S512x8x128_S512x1024 :=
  after0_v1 (V0 m c)

/-- (g6) The first call's left factor is the first argument as launched. -/
theorem V1_main_arg0 (c : Dev nD) : V1 m c main_arg0 = m ((c : Thread nD τ).loc main_arg0) :=
  (V1_of m c main_arg0 (by decide)).trans rfl

end Cert.KernelIdeal.HandValue

end
-- ==== Proof.LibRank3.lean ====
/-
  Rank-three arrays read at an index: the two leading axes of an `[a, b, c]` array flattened to one
  axis of `a * b` rows and back (row `p * b + q` of the flat array is entry `(p, q)` of the leading
  axes); a unit axis added in the middle, at the end or twice in front; a broadcast along the middle
  axis, along the last axis and along both leading axes; and the index that a reduction along the
  middle axis puts back.
-/
import Idealize.ShloMosaic.Lib.Pipeline.Value
import Idealize.ShloMosaic.Lib.ValueIdx
import Idealize.ShloMosaic.PureOps.Reduce

noncomputable section

namespace Cert.Rank3

open Idealize.ShloMosaic Idealize.ShloMosaic.ValueIdx

variable {α : Type}

/-- Row `p * b + q` lies among the `n = a * b` flat rows. -/
theorem flat_lt {a b n : ℕ} (hn : n = a * b) (p : Fin a) (q : Fin b) : p.val * b + q.val < n := by
  have hp := p.isLt
  have hq := q.isLt
  have : p.val * b + q.val < (p.val + 1) * b := by rw [Nat.add_mul, Nat.one_mul]; omega
  exact hn ▸ Nat.lt_of_lt_of_le this (Nat.mul_le_mul_right b hp)

/-- The flat row of entry `(p, q)` of the leading axes. -/
abbrev flat {a b n : ℕ} (hn : n = a * b) (p : Fin a) (q : Fin b) : Fin n := ⟨p.val * b + q.val, flat_lt hn p q⟩

/-- An `[a, b, c]` array flattened to `[a * b, c]` reads, at row `p * b + q` and column `r`, the entry `(p, q, r)`. -/
theorem shapeCast_abc_nc_apply {a b c n : ℕ} (hn : n = a * b) (x : (⟨3, ![a, b, c]⟩ : Shape).Idx → α)
    (h : (⟨3, ![a, b, c]⟩ : Shape).ShapeCasts ⟨2, ![n, c]⟩) (p : Fin a) (q : Fin b) (r : Fin c) :
    shapeCast ⟨2, ![n, c]⟩ x h (ix2 (flat hn p q) r) = x (ix3 p q r) :=
  shapeCast_apply x h _ _ (by
    rw [Shape.rowMajor_val_three, Shape.rowMajor_val_two]
    rfl)

/-- An `[a * b, c]` array viewed as `[a, b, c]` reads, at `(p, q, r)`, row `p * b + q` at column `r`. -/
theorem shapeCast_nc_abc_apply {a b c n : ℕ} (hn : n = a * b) (x : (⟨2, ![n, c]⟩ : Shape).Idx → α)
    (h : (⟨2, ![n, c]⟩ : Shape).ShapeCasts ⟨3, ![a, b, c]⟩) (p : Fin a) (q : Fin b) (r : Fin c) :
    shapeCast ⟨3, ![a, b, c]⟩ x h (ix3 p q r) = x (ix2 (flat hn p q) r) :=
  shapeCast_apply x h _ _ (by
    rw [Shape.rowMajor_val_three, Shape.rowMajor_val_two]
    rfl)

/-- An `[a, c]` array with a unit axis put in the middle reads, at `(p, u, r)`, the entry `(p, r)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (r : Fin c) :
    shapeCast ⟨3, ![a, 1, c]⟩ x h (ix3 p u r) = x (ix2 p r) :=
  shapeCast_apply x h _ _ (by
    have hu : u.val = 0 := by omega
    rw [Shape.rowMajor_val_three, Shape.rowMajor_val_two]
    show p.val * c + r.val = (p.val * 1 + u.val) * c + r.val
    rw [hu, Nat.mul_one, Nat.add_zero])

/-- An `[a, b]` array with a unit axis put at the end reads, at `(p, q, u)`, the entry `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_three, Shape.rowMajor_val_two]
    show p.val * b + q.val = (p.val * b + q.val) * 1 + u.val
    rw [hu, Nat.mul_one, Nat.add_zero])

/-- A `[c]` vector with two unit axes put in front reads, at `(u, v, r)`, the entry `r`. -/
theorem shapeCast_c_11c_apply {c : ℕ} (x : (⟨1, ![c]⟩ : Shape).Idx → α)
    (h : (⟨1, ![c]⟩ : Shape).ShapeCasts ⟨3, ![1, 1, c]⟩) (u v : Fin 1) (r : Fin c) :
    shapeCast ⟨3, ![1, 1, c]⟩ x h (ix3 u v r) = x (ix1 r) :=
  shapeCast_apply x h _ _ (by
    have hu : u.val = 0 := by omega
    have hv : v.val = 0 := by omega
    rw [Shape.rowMajor_val_three, Shape.rowMajor_val_one]
    show r.val = (u.val * 1 + v.val) * c + r.val
    rw [hu, hv]
    simp)

/-- An `[a, 1, c]` array broadcast along its middle axis reads, at `(p, q, r)`, the entry `(p, 0, r)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

/-- An `[a, b, 1]` array broadcast along its last axis reads, at `(p, q, r)`, the entry `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ v h (ix3 p q r) = v (ix3 p q (0 : Fin 1)) := by
  refine broadcastTo_apply v h (ix3 p q r) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-- A `[1, 1, c]` array broadcast along both leading axes reads, at `(p, q, r)`, the entry `(0, 0, r)`. -/
theorem broadcastTo_11c_abc_apply {a b c : ℕ} (v : (⟨3, ![1, 1, c]⟩ : Shape).Idx → α)
    (h : (⟨3, ![1, 1, c]⟩ : Shape).Broadcasts ⟨3, ![a, b, c]⟩) (p : Fin a) (q : Fin b) (r : Fin c) :
    broadcastTo ⟨3, ![a, b, c]⟩ v h (ix3 p q r) = v (ix3 (0 : Fin 1) (0 : Fin 1) r) := by
  refine broadcastTo_apply v h (ix3 p q r) (ix3 (0 : Fin 1) (0 : Fin 1) r) fun ax => ?_
  match ax with
  | ⟨0, _⟩ => rfl
  | ⟨1, _⟩ => rfl
  | ⟨2, _⟩ =>
    show r.val = if c = 1 then 0 else r.val
    split
    · have := r.isLt; omega
    · rfl

/-- Over entry `(p, r)` of the result, position `k` of a reduction along the middle axis is `(p, k, r)`. -/
theorem lift_mid {a b c : ℕ} (h : Shape.Reduces ⟨3, ![a, b, c]⟩ [1] ⟨2, ![a, c]⟩) (p : Fin a) (r : Fin c) (k : Fin b) :
    h.lift (ix2 p r) k = ix3 p k r :=
  funext fun ax => Fin.ext (by match ax with | ⟨0, _⟩ => rfl | ⟨1, _⟩ => rfl | ⟨2, _⟩ => rfl)

end Cert.Rank3

end
-- ==== Proof.PayValueAux.lean ====
/-
  The pieces of the pairwise body read one entry at a time: one slice of a block spread over the cube of
  row pairs, one |x - y| term of the distance, a sum along the middle axis of the cube, and the values
  the first half of the body hands to the second (the first three terms of the distance and the
  fourth slices).
-/
import proofs.«147698_j2860448219172_1_alg».proof.Proof.Gen.KernelIdeal.Skeleton
import proofs.«147698_j2860448219172_1_alg».proof.Proof.LibRank3
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.PayValue

open Idealize.ShloMosaic Idealize.ShloMosaic.ValueIdx Cert.KernelIdeal Cert.KernelIdeal.Gen

/-! ## One slice of a block, spread over the cube of pairs -/

section Layout
variable {α : Type}

/-- A `[128, 1, 128]` array with its unit axis dropped reads, at `(a, o)`, the entry `(a, 0, o)`. -/
theorem cast_drop_mid (x : S128x1x128.Idx → α) (h : S128x1x128.ShapeCasts S128x128) (a o : Fin 128) :
    shapeCast S128x128 x h (ix2 a o) = x (ix3 a (0 : Fin 1) o) :=
  shapeCast_apply x h _ _ (by
    rw [Shape.rowMajor_val_three, Shape.rowMajor_val_two]
    show (a.val * 1 + 0) * 128 + o.val = a.val * 128 + o.val
    omega)

/-- A `[1, 128, 128]` array broadcast along its leading axis reads, at `(a, b, o)`, the entry `(0, b, o)`. -/
theorem bcast_lead (v : S1x128x128.Idx → α) (h : S1x128x128.Broadcasts S128x128x128) (a b o : Fin 128) :
    broadcastTo S128x128x128 v h (ix3 a b o) = v (ix3 (0 : Fin 1) b o) := by
  refine broadcastTo_apply v h (ix3 a b o) (ix3 (0 : Fin 1) b o) fun ax => ?_
  match ax with
  | ⟨0, _⟩ => rfl
  | ⟨1, _⟩ => rfl
  | ⟨2, _⟩ => rfl

/-- Slice `k` of a block, as a matrix, spread along the MIDDLE axis: entry `(a, b, o)` is `w (a, k, o)`. -/
theorem row_term (w : S128x8x128.Idx → α) (m : ℕ) (h : S128x8x128.Slices ![0, m, 0] S128x1x128)
    (h1 : S128x1x128.ShapeCasts S128x128) (h2 : S128x128.ShapeCasts S128x1x128)
    (h3 : S128x1x128.Broadcasts S128x128x128) (k : Fin 8) (hk : k.val = m) (a b o : Fin 128) :
    broadcastTo S128x128x128 (shapeCast S128x1x128 (shapeCast S128x128
      (extractStridedSlice S128x1x128 ![0, m, 0] w h) h1) h2) h3 (ix3 a b o) = w (ix3 a k o) := by
  refine (Cert.Rank3.broadcastTo_a1c_abc_apply _ h3 a b o).trans ?_
  refine (Cert.Rank3.shapeCast_ac_a1c_apply _ h2 a 0 o).trans ?_
  refine (cast_drop_mid _ h1 a o).trans ?_
  exact slice3_axis1_apply m w h a 0 o k (by rw [hk]; rfl)

/-- Slice `k` of a block, as a matrix, spread along the LEADING axis: entry `(a, b, o)` is `w (b, k, o)`. -/
theorem col_term (w : S128x8x128.Idx → α) (m : ℕ) (h : S128x8x128.Slices ![0, m, 0] S128x1x128)
    (h1 : S128x1x128.ShapeCasts S128x128) (h2 : S128x128.ShapeCasts S1x128x128)
    (h3 : S1x128x128.Broadcasts S128x128x128) (k : Fin 8) (hk : k.val = m) (a b o : Fin 128) :
    broadcastTo S128x128x128 (shapeCast S1x128x128 (shapeCast S128x128
      (extractStridedSlice S128x1x128 ![0, m, 0] w h) h1) h2) h3 (ix3 a b o) = w (ix3 b k o) := by
  refine (bcast_lead _ h3 a b o).trans ?_
  refine (shapeCast_ab_1ab_apply _ h2 0 b o).trans ?_
  refine (cast_drop_mid _ h1 b o).trans ?_
  exact slice3_axis1_apply m w h b 0 o k (by rw [hk]; rfl)

end Layout

/-! ## The terms of the distance and the sum over the rows -/

/-- `|p - q|` as the exact values compute it: the larger of the difference and its negation. -/
abbrev adiff (p q : EReal) : EReal := max (p - q) (-(p - q))

/-- One term of the distance at `(a, b, o)`: the two `k`-slices spread over the cube, subtracted, in absolute value. -/
theorem abs_term (x y : FVec Ideal S128x8x128 .f32) (m : ℕ) (h : S128x8x128.Slices ![0, m, 0] S128x1x128)
    (h1 : S128x1x128.ShapeCasts S128x128) (h2 : S128x128.ShapeCasts S128x1x128)
    (h3 : S128x1x128.Broadcasts S128x128x128) (h2' : S128x128.ShapeCasts S1x128x128)
    (h3' : S1x128x128.Broadcasts S128x128x128) (k : Fin 8) (hk : k.val = m) (a b o : Fin 128) :
    absf (subf
        (broadcastTo S128x128x128 (shapeCast S128x1x128 (shapeCast S128x128
          (extractStridedSlice S128x1x128 ![0, m, 0] x h) h1) h2) h3)
        (broadcastTo S128x128x128 (shapeCast S1x128x128 (shapeCast S128x128
          (extractStridedSlice S128x1x128 ![0, m, 0] y h) h1) h2') h3')) (ix3 a b o)
      = adiff (x (ix3 a k o)) (y (ix3 b k o)) :=
  congrArg₂ adiff (row_term x m h h1 h2 h3 k hk a b o) (col_term y m h h1 h2' h3' k hk a b o)

/-- A sum along the middle axis of the cube, read at `(a, o)`, is the sum over `b` of the entries `(a, b, o)`. -/
theorem reduce_mid (src : FVec Ideal S128x128x128 .f32) (h : S128x128x128.Reduces [1] S128x128)
    (hφ : FKind.Formats .f32) (hacc : (0x00000000#32 : BitVec 32) = FKind.add.neutral .f32 hφ) (a o : Fin 128) :
    multiReduction .add [1] S128x128 src 0x00000000#32 h hφ hacc (ix2 a o) = ∑ b : Fin 128, src (ix3 a b o) := by
  refine (Ideal.multiReduction_add_single src _ h hφ hacc (ix2 a o)).trans ?_
  refine Finset.sum_congr rfl fun b _ => ?_
  exact congrArg src (Cert.Rank3.lift_mid h a o b)

/-- The first three terms of the distance. -/
theorem pay4_apply (v3 v5 : Vec Ideal S128x8x128 .f32) (a b o : Fin 128) :
    k1_pay4 (F := Ideal) v3 v5 (ix3 a b o)
      = adiff (v3 (ix3 a 0 o)) (v5 (ix3 b 0 o)) + adiff (v3 (ix3 a 1 o)) (v5 (ix3 b 1 o))
        + adiff (v3 (ix3 a 2 o)) (v5 (ix3 b 2 o)) := by
  have e2 : k1_pay2 (F := Ideal) v3 = v3 := shapeCast_self v3 _
  have e3 : k1_pay3 (F := Ideal) v5 = v5 := shapeCast_self v5 _
  unfold k1_pay4
  rw [e2, e3]
  refine (congrArg₂ (fun p q : EReal => p + q) (congrArg₂ (fun p q : EReal => p + q)
    (congrArg₂ (fun p q : EReal => p + q) Ideal.ofBits_zero_f32 (abs_term v3 v5 0 _ _ _ _ _ _ 0 rfl a b o))
    (abs_term v3 v5 1 _ _ _ _ _ _ 1 rfl a b o)) (abs_term v3 v5 2 _ _ _ _ _ _ 2 rfl a b o)).trans ?_
  rw [zero_add]

/-- Slice 3 of the first block, spread along the middle axis. -/
theorem pay6_apply (v3 : Vec Ideal S128x8x128 .f32) (a b o : Fin 128) :
    k1_pay6 (F := Ideal) v3 (ix3 a b o) = v3 (ix3 a 3 o) := by
  have e2 : k1_pay2 (F := Ideal) v3 = v3 := shapeCast_self v3 _
  unfold k1_pay6
  rw [e2]
  exact row_term v3 3 _ _ _ _ 3 rfl a b o

/-- Slice 3 of the second block, spread along the leading axis. -/
theorem pay5_apply (v5 : Vec Ideal S128x8x128 .f32) (h3 : S1x128x128.Broadcasts S128x128x128) (a b o : Fin 128) :
    broadcastTo S128x128x128 (k1_pay5 (F := Ideal) v5) h3 (ix3 a b o) = v5 (ix3 b 3 o) := by
  have e3 : k1_pay3 (F := Ideal) v5 = v5 := shapeCast_self v5 _
  unfold k1_pay5
  rw [e3]
  exact col_term v5 3 _ _ _ h3 3 rfl a b o

end Cert.KernelIdeal.PayValue

end
-- ==== Proof.LibMatmul.lean ====
/-
  A plain matrix product read at an entry: for an `[n, K]` matrix times a `[K, m]` matrix accumulated
  into zero, entry `(p, c)` of the result is the sum over `k` of `lhs (p, k) * rhs (k, c)`, at the exact
  values. The dimension numbers enter only through four facts about where the operand indices come
  from (rows of the left operand from the result's rows, its columns from the contraction position;
  rows of the right operand from the contraction position, its columns from the result's columns).
-/
import Idealize.ShloMosaic.Lib.ValueIdx
import Idealize.ShloMosaic.PureOps.Ideal.Laws

noncomputable section

namespace Cert.PlainDot

open Idealize.ShloMosaic Idealize.ShloMosaic.ValueIdx

/-- Entry `(p, c)` of a plain product into a zero accumulator is `∑ k, lhs (p, k) * rhs (k, c)`. -/
theorem matmul_zero_apply {n K m : ℕ} {φ₁ φ₂ : FTy}
    (D : DotDims ⟨2, ![n, K]⟩ ⟨2, ![K, m]⟩ ⟨2, ![n, m]⟩) (prec : Option ContractPrecision)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (lhs : FVec Ideal ⟨2, ![n, K]⟩ φ₁) (rhs : FVec Ideal ⟨2, ![K, m]⟩ φ₂) (p : Fin n) (c : Fin m) :
    matmul D prec lhs rhs (constant ⟨2, ![n, m]⟩ .f32 0x00000000#32) (ix2 p c)
      = ∑ k : Fin K, lhs (ix2 p k) * rhs (ix2 k c) := by
  show FloatOps.matmul D prec lhs rhs (constant ⟨2, ![n, m]⟩ .f32 0x00000000#32) (ix2 p c) = _
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.PlainDot

end
-- ==== Proof.PayValue.lean ====
/-
  The kernel's arithmetic at the exact values, read one entry at a time: the matrix product of the
  first call, the zero block, and the pairwise body of the second call, whose entry (a, o) adds to the
  accumulator the sum over the rows b of the other block of exp (-∑ k, |x (a, k, o) - y (b, k, o)|).
-/
import proofs.«147698_j2860448219172_1_alg».proof.Proof.PayValueAux
import proofs.«147698_j2860448219172_1_alg».proof.Proof.LibMatmul

noncomputable section

namespace Cert.KernelIdeal.PayValue

open Idealize.ShloMosaic Idealize.ShloMosaic.ValueIdx Cert.KernelIdeal Cert.KernelIdeal.Gen

/-! ## The matrix product -/

/-- The left operand's row is the result's row. -/
theorem dot_lhs0 (i : S512x1024.Idx) (q : dot_S512x512_S512x1024_S512x1024_1_0_0_1_n_n.contr.Idx) :
    (dot_S512x512_S512x1024_S512x1024_1_0_0_1_n_n.lhsIdx i q 0).val = (i 0).val := by
  unfold DotDims.lhsIdx
  rw [dif_neg (show ¬(0 : Fin S512x512.rank) ∈ dot_S512x512_S512x1024_S512x1024_1_0_0_1_n_n.lhsBatch by decide),
    dif_pos (show (0 : Fin S512x512.rank) ∈ dot_S512x512_S512x1024_S512x1024_1_0_0_1_n_n.lhsNonContracting by decide)]
  rfl

/-- The left operand's column is the contraction position. -/
theorem dot_lhs1 (i : S512x1024.Idx) (q : dot_S512x512_S512x1024_S512x1024_1_0_0_1_n_n.contr.Idx) :
    (dot_S512x512_S512x1024_S512x1024_1_0_0_1_n_n.lhsIdx i q 1).val = (q ⟨0, by decide⟩).val :=
  dot_S512x512_S512x1024_S512x1024_1_0_0_1_n_n.lhsIdx_val_of_single rfl i q

/-- The right operand's row is the contraction position. -/
theorem dot_rhs0 (i : S512x1024.Idx) (q : dot_S512x512_S512x1024_S512x1024_1_0_0_1_n_n.contr.Idx) :
    (dot_S512x512_S512x1024_S512x1024_1_0_0_1_n_n.rhsIdx i q 0).val = (q ⟨0, by decide⟩).val :=
  dot_S512x512_S512x1024_S512x1024_1_0_0_1_n_n.rhsIdx_val_of_single rfl i q

/-- The right operand's column is the result's column. -/
theorem dot_rhs1 (i : S512x1024.Idx) (q : dot_S512x512_S512x1024_S512x1024_1_0_0_1_n_n.contr.Idx) :
    (dot_S512x512_S512x1024_S512x1024_1_0_0_1_n_n.rhsIdx i q 1).val = (i 1).val := by
  unfold DotDims.rhsIdx
  rw [dif_neg (show ¬(1 : Fin S512x1024.rank) ∈ dot_S512x512_S512x1024_S512x1024_1_0_0_1_n_n.rhsBatch by decide),
    dif_pos (show (1 : Fin S512x1024.rank) ∈ dot_S512x512_S512x1024_S512x1024_1_0_0_1_n_n.rhsNonContracting by decide)]
  rfl

/-- Entry (n, q) of the first call's product is the sum over f of x (n, f) * y (f, q): the format
    changes are the identity at the exact values and the accumulator is zero. -/
theorem pay_mm (v0 : Vec Ideal S512x512 .f32) (v2 : Vec Ideal S512x1024 .f32) (n : Fin 512) (q : Fin 1024) :
    k0_pay1 (F := Ideal) v0 v2 (ix2 n q) = ∑ f : Fin 512, v0 (ix2 n f) * v2 (ix2 f q) := by
  unfold k0_pay1
  refine (Cert.PlainDot.matmul_zero_apply dot_S512x512_S512x1024_S512x1024_1_0_0_1_n_n none rfl rfl
    dot_lhs0 dot_lhs1 dot_rhs0 dot_rhs1 _ _ n q).trans ?_
  refine Finset.sum_congr rfl fun f _ => ?_
  rw [truncf_apply, truncf_apply, shapeCast_self]

/-! ## The zero block -/

/-- The block the accumulator is reset to is zero everywhere. -/
theorem pay_zero (a o : Fin 128) : k1_pay1 (F := Ideal) (ix2 a o) = 0 := by
  unfold k1_pay1
  exact Ideal.ofBits_zero_f32

/-! ## The pairwise body -/

/-- The body over any carried values: the accumulator plus, over the rows `b` of the second block, the exponential
    of minus the distance — the carried partial sum, the term of the carried slices, and the last four terms. -/
theorem pay7_apply (v4 v6 : FVec Ideal S128x8x128 .f32) (v40 v47 : FVec Ideal S128x128x128 .f32)
    (v46 : FVec Ideal S1x128x128 .f32) (acc : Vec Ideal S128x128 .f32) (a o : Fin 128) :
    k1_pay7 (F := Ideal) v4 v6 v40 v46 v47 acc (ix2 a o)
      = acc (ix2 a o) + ∑ b : Fin 128, Ideal.exp (-(v40 (ix3 a b o)
          + adiff (v47 (ix3 a b o)) (broadcastTo S128x128x128 v46 broadcasts_S1x128x128_S128x128x128 (ix3 a b o))
          + adiff (v4 (ix3 a 4 o)) (v6 (ix3 b 4 o)) + adiff (v4 (ix3 a 5 o)) (v6 (ix3 b 5 o))
          + adiff (v4 (ix3 a 6 o)) (v6 (ix3 b 6 o)) + adiff (v4 (ix3 a 7 o)) (v6 (ix3 b 7 o)))) := by
  unfold k1_pay7
  refine congrArg₂ (fun p q : EReal => p + q) (congrFun (shapeCast_self acc _) (ix2 a o)) ?_
  refine (reduce_mid _ _ _ _ a o).trans ?_
  refine Finset.sum_congr rfl fun b _ => ?_
  refine congrArg Ideal.exp ?_
  refine (congrArg₂ (fun p q : EReal => p - q) Ideal.ofBits_zero_f32 ?_).trans (zero_sub _)
  exact congrArg₂ (fun p q : EReal => p + q) (congrArg₂ (fun p q : EReal => p + q)
    (congrArg₂ (fun p q : EReal => p + q) (congrArg₂ (fun p q : EReal => p + q) rfl
      (abs_term v4 v6 4 _ _ _ _ _ _ 4 rfl a b o)) (abs_term v4 v6 5 _ _ _ _ _ _ 5 rfl a b o))
    (abs_term v4 v6 6 _ _ _ _ _ _ 6 rfl a b o)) (abs_term v4 v6 7 _ _ _ _ _ _ 7 rfl a b o)

/-- Entry `(a, o)` of the pairwise body as the second call runs it: the accumulator plus the sum over the rows `b`
    of the second block of `exp (-d)`, `d` the sum over the eight slices `k` of `|x (a, k, o) - y (b, k, o)|`. -/
theorem pay_pair (v3 v5 : Vec Ideal S128x8x128 .f32) (acc : Vec Ideal S128x128 .f32) (a o : Fin 128) :
    k1_pay7 (F := Ideal) (k1_pay2 v3) (k1_pay3 v5) (k1_pay4 v3 v5) (k1_pay5 v5) (k1_pay6 v3) acc (ix2 a o)
      = acc (ix2 a o) + ∑ b : Fin 128, Ideal.exp (-(∑ k : Fin 8,
          max (v3 (ix3 a k o) - v5 (ix3 b k o)) (-(v3 (ix3 a k o) - v5 (ix3 b k o))))) := by
  have e2 : k1_pay2 (F := Ideal) v3 = v3 := shapeCast_self v3 _
  have e3 : k1_pay3 (F := Ideal) v5 = v5 := shapeCast_self v5 _
  rw [e2, e3]
  refine (pay7_apply v3 v5 _ _ _ acc a o).trans ?_
  refine congrArg (fun s : EReal => acc (ix2 a o) + s) (Finset.sum_congr rfl fun b _ => ?_)
  refine congrArg (fun d : EReal => Ideal.exp (-d)) ?_
  rw [pay4_apply, pay6_apply, pay5_apply, Fin.sum_univ_eight]

end Cert.KernelIdeal.PayValue

end
-- ==== Proof.ValueReg0.lean ====
/- What the projection's pallas_call (region 0) leaves in its product array, at the exact values, for ANY contents V
   the region is entered with.

   The grid has one point; at it every window's block is its whole array (block index 0 on both axes, block sizes the
   array's own). So the left factor's block IS the array main_arg0 as the region found it, the right factor's block IS
   main_v1, and the one write-back writes the whole product array main_v2. What the body leaves in the product's
   buffer is the matmul payload of the two blocks; the product array therefore ends holding the payload of the two
   arrays, whose entry (n, q) is the sum over f of main_arg0 (n, f) * main_v1 (f, q). -/
import proofs.«147698_j2860448219172_1_alg».proof.Proof.FrameKernelIdeal.Reg0
import proofs.«147698_j2860448219172_1_alg».proof.Proof.PayValue
import Idealize.ShloMosaic.Lib.Pipeline.Value
import Idealize.ShloMosaic.Lib.ValueIdx

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The zero offsets as the body's accesses spell them. -/
theorem hz : (![0, 0] : Fin 2 → Nat) = fun _ => 0 := funext fun a => by fin_cases a <;> rfl

/-! ## The body's result, over any blocks -/

/-- What the body leaves in the product's buffer is the matmul payload of the two blocks: the one store is the whole
    rectangle, and the two loads read the whole blocks. -/
theorem out_eq {F : FTy → Type} [FloatOps F] (x0 : Vec F S512x512 .f32) (x1 : Vec F S512x1024 .f32) :
    out0_2 x0 x1 = k0_pay1 x0 x1 := by
  unfold out0_2 r0_0 r0_1
  rw [View.canon_unit_zero hz]
  simp only [View.ld_unit_zero (S := S512x512) hz, View.ld_unit_zero (S := S512x1024) hz]

/-! ## The one point's blocks are the whole arrays -/

/-- Each window's block offsets at the one point are zero. -/
theorem off0 : (fun a => win0_0.index t0_0 a * main_arg0.ty.shape.size a) = fun _ => 0 := funext fun a => by fin_cases a <;> decide
theorem off1 : (fun a => win0_1.index t0_0 a * main_v1.ty.shape.size a) = fun _ => 0 := funext fun a => by fin_cases a <;> decide
theorem off2 : (fun a => win0_2.index t0_0 a * main_v2.ty.shape.size a) = fun _ => 0 := funext fun a => by fin_cases a <;> decide

section AtV

variable (V : (c : Dev nD) → (b : Ref sig .tc) → Buf (Elt Ideal) ((c : Thread nD τ).loc b))

/-- The left factor's array as the region finds it. -/
abbrev lhs0 (c : Dev nD) : Vec Ideal S512x512 .f32 := V c main_arg0
/-- The right factor's array as the region finds it. -/
abbrev rhs0 (c : Dev nD) : Vec Ideal S512x1024 .f32 := V c main_v1

/-- The left factor's block at the one point is its whole array. -/
theorem iblk_lhs (c : Dev nD) : iblk0 V c 0 t0_0 = lhs0 V c := by
  unfold iblk0
  exact Memref.read_access_unit_zero (Elt Ideal) main_arg0 off0 (fun a => by rw [congrFun off0 a]; simp) (V c main_arg0)

/-- The right factor's block at the one point is its whole array. -/
theorem iblk_rhs (c : Dev nD) : iblk0 V c 1 t0_0 = rhs0 V c := by
  unfold iblk0
  exact Memref.read_access_unit_zero (Elt Ideal) main_v1 off1 (fun a => by rw [congrFun off1 a]; simp) (V c main_v1)

/-- The product array after the region, as one function: the matmul payload of the two arrays. -/
abbrev prod0 (c : Dev nD) : Vec Ideal S512x1024 .f32 := k0_pay1 (F := Ideal) (lhs0 V c) (rhs0 V c)

/-- What the one write-back writes is the product array's whole block of prod0. -/
theorem flushed_eq (c : Dev nD) (t : Fin cfg0.N) (hf : (cfg0.win 2).flush t = true) :
    (dat0 (F := Ideal) V c).flushed 2 t = ((cfg0.win 2).blk t).view.read (Elt Ideal) (prod0 V c) := by
  obtain rfl : t = t0_0 := fin_N0 t
  show (cfg0.win 2).cut (grid0.coords t0_0) ((dat0 (F := Ideal) V c).after 2 t0_0) = _
  rw [after0_2, out_eq, iblk_lhs, iblk_rhs]
  exact (Memref.read_access_unit_zero (Elt Ideal) main_v2 off2 (fun a => by rw [congrFun off2 a]; simp) (prod0 V c)).symm

/-- The one point's block covers the product array. -/
theorem cover (i : S512x1024.Idx) :
    ∃ t : Fin cfg0.N, (cfg0.win 2).flush t = true ∧ i ∈ ((cfg0.win 2).blk t).view.set :=
  ⟨t0_0, flush0_2 t0_0, by
    show i ∈ ((View.whole main_v2).slice (win0_2.rect t0_0)).set
    rw [View.set_slice_whole, Rect.mem_set_unit]
    intro a
    have h0 : (i 0 : Nat) < 512 := (i 0).isLt
    have h1 : (i 1 : Nat) < 1024 := (i 1).isLt
    match a with
    | ⟨0, _⟩ => show win0_2.index t0_0 0 * win0_2.size 0 ≤ (i 0 : Nat) ∧ (i 0 : Nat) < win0_2.index t0_0 0 * win0_2.size 0 + win0_2.xsize (grid0.coords t0_0) 0
                rw [show win0_2.index t0_0 0 * win0_2.size 0 = 0 from by decide +kernel, show win0_2.xsize (grid0.coords t0_0) 0 = 512 from by decide +kernel]; omega
    | ⟨1, _⟩ => show win0_2.index t0_0 1 * win0_2.size 1 ≤ (i 1 : Nat) ∧ (i 1 : Nat) < win0_2.index t0_0 1 * win0_2.size 1 + win0_2.xsize (grid0.coords t0_0) 1
                rw [show win0_2.index t0_0 1 * win0_2.size 1 = 0 from by decide +kernel, show win0_2.xsize (grid0.coords t0_0) 1 = 1024 from by decide +kernel]; omega⟩

/-- The product array after the region, whole: the matmul payload of the two arrays the region found. -/
theorem arr0_2_whole (c : Dev nD) : (dat0 (F := Ideal) V c).arrAt 2 cfg0.N = prod0 V c :=
  (dat0 (F := Ideal) V c).arrAt_eq_of_cover 2 (prod0 V c) (flushed_eq V c) (cover)

/-- The product array after the region, typed as a [512, 1024] array of exact values. -/
abbrev res0 (c : Dev nD) : Vec Ideal S512x1024 .f32 := (dat0 (F := Ideal) V c).arrAt 2 cfg0.N

/-- Entry (n, q) of the product array after the region: the sum over f of main_arg0 (n, f) * main_v1 (f, q). -/
theorem arr0_2 (c : Dev nD) (n : Fin 512) (q : Fin 1024) :
    res0 V c (ix2 n q) = ∑ f : Fin 512, lhs0 V c (ix2 n f) * rhs0 V c (ix2 f q) := by
  show (dat0 (F := Ideal) V c).arrAt 2 cfg0.N (ix2 n q) = _
  rw [arr0_2_whole]
  exact Cert.KernelIdeal.PayValue.pay_mm (lhs0 V c) (rhs0 V c) n q

end AtV

end Cert.KernelIdeal.HandValue

end
-- ==== Proof.FrameKernelIdeal.Reg1Pieces.lean ====
import proofs.«147698_j2860448219172_1_alg».proof.Proof.FrameKernelIdeal.Reg1
import Idealize.ShloMosaic.Lib.Pipeline.Value

set_option maxRecDepth 16384

noncomputable section

/-
  The pairwise-distance call's body, read back as a value. Whichever branch the body takes, the last thing it does is
  store, over its whole output block, ONE payload: the block's previous contents plus, for every row a of the i-block
  and lane o, the sum over the rows b of the j-block of exp(0 - d(a, b, o)). With j = 0 the previous contents are the
  zero block the body has just stored and read back; with j > 0 they are what the point before left. Everything here
  holds at any float instance.
-/
namespace Cert.KernelIdeal.Hand

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen

variable {F : FTy → Type} [FloatOps F]

/-- The zero offsets of a rank-two block, however spelt. -/
theorem hz1_2 : (![0, 0] : Fin 2 → Nat) = fun _ => 0 := funext fun a => by fin_cases a <;> rfl
/-- The zero offsets of a rank-three block. -/
theorem hz1_3 : (![0, 0, 0] : Fin 3 → Nat) = fun _ => 0 := funext fun a => by fin_cases a <;> rfl

/-- j > 0: the body's one store covers the output block; its payload is the accumulation step over the block's
    previous contents `xo`, of the two input blocks read whole. -/
theorem out1_B_2_eq (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : ¬cond1_0 i) (x0 : Vec F S128x8x128 .f32) (x1 : Vec F S128x8x128 .f32) (xo : Vec F S128x128 .f32) :
    out1_B_2 c i arg2 harg2 arg3 harg3 arg4 harg4 hc0 x0 x1 xo
      = k1_pay7 (k1_pay2 x0) (k1_pay3 x1) (k1_pay4 x0 x1) (k1_pay5 x1) (k1_pay6 x0) xo := by
  unfold out1_B_2
  rw [View.read_writes_eq_canon _ _ _ (cover1_B_2 c i arg2 harg2 arg3 harg3 arg4 harg4 hc0 x0 x1 xo)]
  unfold kernelRun1_B
  dsimp only
  sl_unfold_words
  rw [View.canon_unit_zero (S := S128x128) hz1_2]
  simp only [View.readAt_eq_ld, harg2.read_unread, harg3.read_unread, harg4.read_unread,
    View.ld_unit_zero (S := S128x8x128) hz1_3, View.ld_unit_zero (S := S128x128) hz1_2]

/-- j = 0: the body first stores the zero block over the whole output block and reads it back, so the same step is
    taken over the zero block. -/
theorem out1_A_2_eq (c : Dev nD) (i : grid1.Coords) (arg2 : Memref sig .tc .vmem S128x8x128 .f32) (harg2 : arg2.IsWhole)
    (arg3 : Memref sig .tc .vmem S128x8x128 .f32) (harg3 : arg3.IsWhole) (arg4 : Memref sig .tc .vmem S128x128 .f32) (harg4 : arg4.IsWhole)
    (hc0 : cond1_0 i) (x0 : Vec F S128x8x128 .f32) (x1 : Vec F S128x8x128 .f32) :
    out1_A_2 c i arg2 harg2 arg3 harg3 arg4 harg4 hc0 x0 x1
      = k1_pay7 (k1_pay2 x0) (k1_pay3 x1) (k1_pay4 x0 x1) (k1_pay5 x1) (k1_pay6 x0) (k1_pay1 (F := F)) := by
  unfold out1_A_2
  rw [View.read_writes_eq_canon _ _ _ (cover1_A_2 c i arg2 harg2 arg3 harg3 arg4 harg4 hc0 x0 x1)]
  unfold kernelRun1_A
  dsimp only
  sl_unfold_words
  rw [View.canon_cons_unit_zero (S := S128x128) hz1_2, View.readCov_unit_zero (S := S128x128) _ hz1_2]
  simp only [View.readAt_eq_ld, harg2.read_unread, harg3.read_unread,
    View.ld_unit_zero (S := S128x8x128) hz1_3]

end Cert.KernelIdeal.Hand

end
-- ==== Proof.ValueReg1.lean ====
/-
  The value the pairwise-distance call leaves in its result array. Write P (r, k, o) for the projected array as the
  call finds it (512 rows r, 8 slices k, 128 lanes o) and e (r, b, o) = exp (-(sum over k of |P (r, k, o) - P (b, k, o)|)).
  The grid is 4 x 4; the point (i, j) reads rows 128 i .. of P through its first window and rows 128 j .. through its
  second, and its body adds to the output block, entry (a, o), the sum over the 128 rows b of the j-block of
  e (128 i + a, 128 j + b, o), after resetting the block to zero when j = 0. So after the point (i, j) the block holds
  the sums over the j-blocks 0 .. j, after (i, 3) the sum over all 512 rows, and that is what is written back to rows
  128 i .. of the result array: entry (r, o) of the result is the sum over all rows b of e (r, b, o).
-/
import proofs.«147698_j2860448219172_1_alg».proof.Proof.FrameKernelIdeal.Reg1Pieces
import proofs.«147698_j2860448219172_1_alg».proof.Proof.PayValue
import Idealize.ShloMosaic.Lib.Pipeline.Value
import Idealize.ShloMosaic.Lib.ValueIdx

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat)
open Cert.KernelIdeal Cert.KernelIdeal.Gen Cert.KernelIdeal.Hand Cert.KernelIdeal.PayValue

variable (V : (c : Dev nD) → (b : Ref sig .tc) → Buf (Elt Ideal) ((c : Thread nD τ).loc b))

/-! ## The blocks the two input windows read -/

/-- Row `a` of block `q` of an array of 512 rows cut into four blocks of 128 rows (taken modulo 512, so that it is a row
    for every natural `q`; for `q < 4` it is row `128 q + a`). -/
def brow (q : ℕ) (a : Fin 128) : Fin 512 := ⟨(128 * q + a.val) % 512, Nat.mod_lt _ (by decide)⟩

theorem brow_val (q : ℕ) (hq : q < 4) (a : Fin 128) : (brow q a).val = 128 * q + a.val := by
  have := a.isLt
  show (128 * q + a.val) % 512 = _
  omega

/-- The printed index maps over the 16 points: point `t` is (i, j) = (t / 4, t % 4); the first input window and the
    output window sit at block i, the second input window at block j, all at block 0 on the other axes. -/
theorem idx1 : ∀ t : Fin cfg1.N,
    win1_0.index t (0 : Fin 3) = t.val / 4 ∧ win1_0.index t (1 : Fin 3) = 0 ∧ win1_0.index t (2 : Fin 3) = 0
    ∧ win1_1.index t (0 : Fin 3) = t.val % 4 ∧ win1_1.index t (1 : Fin 3) = 0 ∧ win1_1.index t (2 : Fin 3) = 0
    ∧ win1_2.index t (0 : Fin 2) = t.val / 4 ∧ win1_2.index t (1 : Fin 2) = 0 :=
  (by decide +kernel : ∀ t : Fin grid1.N, _)

/-- The first window's block at point `t` is rows 128 (t / 4) .. of the projected array. -/
theorem iblk1_0_apply (c : Dev nD) (t : Fin cfg1.N) (a : Fin 128) (k : Fin 8) (o : Fin 128) :
    (iblk1 V c 0 t : Vec Ideal S128x8x128 .f32) (ix3 a k o)
      = (V c main_v3 : S512x8x128.Idx → Elt Ideal .f32) (ix3 (brow (t.val / 4) a) k o) := by
  obtain ⟨e0, e1, e2, -⟩ := idx1 t
  have ht : t.val < 16 := lt_of_lt_of_eq t.isLt (show cfg1.N = 16 from N_1)
  have ha := a.isLt
  unfold iblk1
  rw [View.read_apply]
  show V c main_v3 _ = V c main_v3 _
  congr 1
  funext d
  apply Fin.ext
  match d with
  | ⟨0, _⟩ => show win1_0.index t 0 * 128 + 1 * a.val = (128 * (t.val / 4) + a.val) % 512; rw [e0]; omega
  | ⟨1, _⟩ => show win1_0.index t 1 * 8 + 1 * k.val = k.val; rw [e1]; omega
  | ⟨2, _⟩ => show win1_0.index t 2 * 128 + 1 * o.val = o.val; rw [e2]; omega

/-- The second window's block at point `t` is rows 128 (t % 4) .. of the same array. -/
theorem iblk1_1_apply (c : Dev nD) (t : Fin cfg1.N) (b : Fin 128) (k : Fin 8) (o : Fin 128) :
    (iblk1 V c 1 t : Vec Ideal S128x8x128 .f32) (ix3 b k o)
      = (V c main_v3 : S512x8x128.Idx → Elt Ideal .f32) (ix3 (brow (t.val % 4) b) k o) := by
  obtain ⟨-, -, -, e0, e1, e2, -⟩ := idx1 t
  have hb := b.isLt
  unfold iblk1
  rw [View.read_apply]
  show V c main_v3 _ = V c main_v3 _
  congr 1
  funext d
  apply Fin.ext
  match d with
  | ⟨0, _⟩ => show win1_1.index t 0 * 128 + 1 * b.val = (128 * (t.val % 4) + b.val) % 512; rw [e0]; omega
  | ⟨1, _⟩ => show win1_1.index t 1 * 8 + 1 * k.val = k.val; rw [e1]; omega
  | ⟨2, _⟩ => show win1_1.index t 2 * 128 + 1 * o.val = o.val; rw [e2]; omega

/-! ## The accumulation over the j-blocks -/

/-- The projected array as the call finds it: 512 rows, 8 slices, 128 lanes. -/
abbrev proj (c : Dev nD) : Vec Ideal S512x8x128 .f32 := V c main_v3

/-- e (r, b, o): the exponential of minus the distance between rows `r` and `b` of the projected array on lane `o`. -/
def epair (c : Dev nD) (r b : Fin 512) (o : Fin 128) : EReal :=
  Ideal.exp (-(∑ k : Fin 8, max (proj V c (ix3 r k o) - proj V c (ix3 b k o)) (-(proj V c (ix3 r k o) - proj V c (ix3 b k o)))))

/-- The sum the point (i, j) adds to entry (a, o) of the output block: over the 128 rows of the j-block. -/
def jsum (c : Dev nD) (i : ℕ) (a o : Fin 128) (j : ℕ) : EReal := ∑ b : Fin 128, epair V c (brow i a) (brow j b) o

/-- The body's step from the zero block, at any two input blocks: the zero entry adds nothing. -/
theorem step_reset (x0 x1 : Vec Ideal S128x8x128 .f32) (a o : Fin 128) :
    k1_pay7 (F := Ideal) (k1_pay2 x0) (k1_pay3 x1) (k1_pay4 x0 x1) (k1_pay5 x1) (k1_pay6 x0) (k1_pay1 (F := Ideal)) (ix2 a o)
      = ∑ b : Fin 128, Ideal.exp (-(∑ k : Fin 8, max (x0 (ix3 a k o) - x1 (ix3 b k o)) (-(x0 (ix3 a k o) - x1 (ix3 b k o))))) :=
  (pay_pair x0 x1 (k1_pay1 (F := Ideal)) a o).trans
    ((congrArg (fun z : EReal => z + ∑ b : Fin 128, Ideal.exp (-(∑ k : Fin 8, max (x0 (ix3 a k o) - x1 (ix3 b k o)) (-(x0 (ix3 a k o) - x1 (ix3 b k o))))))
      (pay_zero a o)).trans (zero_add _))

/-- Two blocks that are rows 128 i .. and rows 128 j .. of the projected array: the sum over the second block's rows. -/
theorem blocks_sum (c : Dev nD) (x0 x1 : Vec Ideal S128x8x128 .f32) (i j : ℕ) (a o : Fin 128)
    (h0 : ∀ k : Fin 8, x0 (ix3 a k o) = proj V c (ix3 (brow i a) k o))
    (h1 : ∀ (b : Fin 128) (k : Fin 8), x1 (ix3 b k o) = proj V c (ix3 (brow j b) k o)) :
    (∑ b : Fin 128, Ideal.exp (-(∑ k : Fin 8, max (x0 (ix3 a k o) - x1 (ix3 b k o)) (-(x0 (ix3 a k o) - x1 (ix3 b k o))))))
      = jsum V c i a o j := by
  unfold jsum epair
  refine Finset.sum_congr rfl fun b _ => ?_
  refine congrArg (fun d : EReal => Ideal.exp (-d)) (Finset.sum_congr rfl fun k _ => ?_)
  rw [h0 k, h1 b k]

/-- At a point with j = 0 the block holds the j-block's sum. -/
theorem point_reset (c : Dev nD) (t : Fin cfg1.N) (h0 : t.val % 4 = 0) (a o : Fin 128) :
    outsAt1 V c t.val t.isLt (ix2 a o) = jsum V c (t.val / 4) a o (t.val % 4) :=
  (congrFun (outsAt1_A V c t h0) (ix2 a o)).trans <|
    (congrFun (out1_A_2_eq (F := Ideal) c (grid1.coords t) (ms1_0 t) (hs1_0 t) (ms1_1 t) (hs1_1 t) (ms1_2 t) (hs1_2 t)
      ((hcond1_0 t).mpr h0) (iblk1 V c 0 t) (iblk1 V c 1 t)) (ix2 a o)).trans <|
    (step_reset (iblk1 V c 0 t) (iblk1 V c 1 t) a o).trans
      (blocks_sum V c (iblk1 V c 0 t) (iblk1 V c 1 t) (t.val / 4) (t.val % 4) a o
        (fun k => iblk1_0_apply V c t a k o) (fun b k => iblk1_1_apply V c t b k o))

/-- At a point with j > 0 the block holds what the point before left plus the j-block's sum. -/
theorem point_add (c : Dev nD) (t : Fin cfg1.N) (h0 : ¬t.val % 4 = 0) (a o : Fin 128) :
    outsAt1 V c t.val t.isLt (ix2 a o)
      = outsAt1 V c (t.val - 1) (Nat.lt_of_le_of_lt (Nat.sub_le _ _) t.isLt) (ix2 a o) + jsum V c (t.val / 4) a o (t.val % 4) :=
  (congrFun (outsAt1_B V c t h0) (ix2 a o)).trans <|
    (congrFun (out1_B_2_eq (F := Ideal) c (grid1.coords t) (ms1_0 t) (hs1_0 t) (ms1_1 t) (hs1_1 t) (ms1_2 t) (hs1_2 t)
      (fun h => h0 ((hcond1_0 t).mp h)) (iblk1 V c 0 t) (iblk1 V c 1 t)
      (outsAt1 V c (t.val - 1) (Nat.lt_of_le_of_lt (Nat.sub_le _ _) t.isLt))) (ix2 a o)).trans <|
    (pay_pair (iblk1 V c 0 t) (iblk1 V c 1 t) (outsAt1 V c (t.val - 1) (Nat.lt_of_le_of_lt (Nat.sub_le _ _) t.isLt)) a o).trans
      (congrArg (fun z : EReal => outsAt1 V c (t.val - 1) (Nat.lt_of_le_of_lt (Nat.sub_le _ _) t.isLt) (ix2 a o) + z)
        (blocks_sum V c (iblk1 V c 0 t) (iblk1 V c 1 t) (t.val / 4) (t.val % 4) a o
          (fun k => iblk1_0_apply V c t a k o) (fun b k => iblk1_1_apply V c t b k o)))

/-- THE ACCUMULATION: after the point (i, j) entry (a, o) of the output block is the sum over the j-blocks 0 .. j. -/
theorem outsAt1_apply (c : Dev nD) (a o : Fin 128) : ∀ (n : ℕ) (hn : n < cfg1.N),
    outsAt1 V c n hn (ix2 a o) = ∑ j ∈ Finset.range (n % 4 + 1), jsum V c (n / 4) a o j
  | 0, hn => by
    rw [point_reset V c ⟨0, hn⟩ (Nat.zero_mod _) a o]
    show jsum V c (0 / 4) a o (0 % 4) = _
    rw [Nat.zero_mod, Finset.sum_range_one]
  | n + 1, hn => by
    by_cases h0 : (n + 1) % 4 = 0
    · rw [point_reset V c ⟨n + 1, hn⟩ h0 a o]
      show jsum V c ((n + 1) / 4) a o ((n + 1) % 4) = _
      rw [h0, Finset.sum_range_one]
    · rw [point_add V c ⟨n + 1, hn⟩ h0 a o]
      show outsAt1 V c n _ (ix2 a o) + jsum V c ((n + 1) / 4) a o ((n + 1) % 4) = _
      rw [outsAt1_apply c a o n (Nat.lt_of_succ_lt hn)]
      have e1 : n / 4 = (n + 1) / 4 := by omega
      have e2 : n % 4 + 1 = (n + 1) % 4 := by omega
      rw [e1, e2, Finset.sum_range_succ]

/-! ## From the blocks to the array -/

/-- The four j-blocks of 128 rows are the 512 rows: a sum over the blocks and the rows of each is the sum over all rows. -/
theorem sum_brow {M : Type*} [AddCommMonoid M] (f : Fin 512 → M) :
    ∑ j ∈ Finset.range 4, ∑ b : Fin 128, f (brow j b) = ∑ r : Fin 512, f r := by
  rw [← Fin.sum_univ_eq_sum_range (fun j => ∑ b : Fin 128, f (brow j b)) 4, ← Fintype.sum_prod_type']
  refine Fintype.sum_equiv ((finProdFinEquiv (m := 4) (n := 128)).trans (finCongr (by decide : 4 * 128 = 512))) _ _ fun p => ?_
  refine congrArg f (Fin.ext ?_)
  have h1 := p.1.isLt
  have h2 := p.2.isLt
  show (128 * p.1.val + p.2.val) % 512 = p.2.val + 128 * p.1.val
  omega

/-- Entry (r, o) of the result: the sum over all 512 rows b of e (r, b, o). -/
def total (c : Dev nD) (r : Fin 512) (o : Fin 128) : EReal := ∑ b : Fin 512, epair V c r b o

/-- After the point (i, 3) the block holds the whole sums of rows 128 i .. -/
theorem jsum_total (c : Dev nD) (i : ℕ) (a o : Fin 128) :
    ∑ j ∈ Finset.range 4, jsum V c i a o j = total V c (brow i a) o :=
  sum_brow fun b => epair V c (brow i a) b o

/-- The result array the call leaves, as one function of its index. -/
def resArr (c : Dev nD) : Vec Ideal S512x128 .f32 :=
  fun i => total V c ⟨(i 0).val, idx2_lt0 i⟩ ⟨(i 1).val, idx2_lt1 i⟩

theorem resArr_apply (c : Dev nD) (i : S512x128.Idx) (r : Fin 512) (o : Fin 128) (h0 : (i 0).val = r.val) (h1 : (i 1).val = o.val) :
    resArr V c i = total V c r o := by
  unfold resArr
  exact congrArg₂ (total V c) (Fin.ext h0) (Fin.ext h1)

/-- WHAT A FLUSHING POINT WRITES BACK: at the point (i, 3) the output block is rows 128 i .. of `resArr`. -/
theorem flushed1_2_eq (c : Dev nD) (t : Fin cfg1.N) (hf : (cfg1.win 2).flush t = true) :
    (dat1 (F := Ideal) V c).flushed 2 t = ((cfg1.win 2).blk t).view.read (Elt Ideal) (resArr V c) := by
  have h3 : t.val % 4 = 3 := (flush1_2 t).mp hf
  have ht : t.val < 16 := lt_of_lt_of_eq t.isLt (show cfg1.N = 16 from N_1)
  obtain ⟨-, -, -, -, -, -, e0, e1⟩ := idx1 t
  show (cfg1.win 2).cut (grid1.coords t) ((dat1 V c).after 2 t) = _
  rw [after1_2]
  funext y
  obtain ⟨a, o, rfl⟩ : ∃ (a : Fin 128) (o : Fin 128), y = ix2 a o := ⟨y 0, y 1, eq_ix2 y⟩
  have ha := a.isLt
  rw [View.read_apply]
  show outsAt1 V c t.val t.isLt (ix2 a o) = resArr V c (((cfg1.win 2).blk t).view.emb (ix2 a o))
  rw [outsAt1_apply V c a o t.val t.isLt, h3]
  refine (jsum_total V c (t.val / 4) a o).trans (resArr_apply V c _ (brow (t.val / 4) a) o ?_ ?_).symm
  · show win1_2.index t 0 * 128 + 1 * a.val = (128 * (t.val / 4) + a.val) % 512
    rw [e0]; omega
  · show win1_2.index t 1 * 128 + 1 * o.val = o.val
    rw [e1]; omega

/-- An index of the result array is in point `t`'s block iff each coordinate is in the block's range on its axis. -/
theorem mem_blk1_2 (t : Fin cfg1.N) (i : S512x128.Idx) :
    i ∈ ((cfg1.win 2).blk t).view.set
      ↔ ∀ d : Fin 2, win1_2.index t d * S128x128.size d ≤ (i d).val ∧ (i d).val < win1_2.index t d * S128x128.size d + S128x128.size d := by
  show i ∈ ((View.whole main_v4).slice (win1_2.rect t)).set ↔ _
  rw [View.set_slice_whole, Rect.mem_set_unit]
  exact Iff.rfl

/-- Row r of the result is covered by the flushing point (r / 128, 3). -/
theorem cover1_2 (i : S512x128.Idx) : ∃ t : Fin cfg1.N, (cfg1.win 2).flush t = true ∧ i ∈ ((cfg1.win 2).blk t).view.set := by
  have hi0 : (i 0).val < 512 := idx2_lt0 i
  have hi1 : (i 1).val < 128 := idx2_lt1 i
  have hN : cfg1.N = 16 := N_1
  let t : Fin cfg1.N := ⟨4 * ((i 0).val / 128) + 3, by rw [hN]; omega⟩
  have htv : t.val = 4 * ((i 0).val / 128) + 3 := rfl
  obtain ⟨-, -, -, -, -, -, e0, e1⟩ := idx1 t
  refine ⟨t, (flush1_2 t).mpr (by rw [htv]; omega), ?_⟩
  rw [mem_blk1_2]
  intro d
  match d with
  | ⟨0, _⟩ => show win1_2.index t 0 * 128 ≤ (i 0).val ∧ (i 0).val < win1_2.index t 0 * 128 + 128; rw [e0, htv]; omega
  | ⟨1, _⟩ => show win1_2.index t 1 * 128 ≤ (i 1).val ∧ (i 1).val < win1_2.index t 1 * 128 + 128; rw [e1]; omega

/-- The result array after the call. -/
theorem arr1_2_eq (c : Dev nD) : (dat1 (F := Ideal) V c).arrAt 2 cfg1.N = resArr V c :=
  (dat1 (F := Ideal) V c).arrAt_eq_of_cover 2 (resArr V c) (flushed1_2_eq V c) cover1_2

/-- THE VALUE THE CALL LEAVES: entry (r, o) of its result array is the sum over all 512 rows b of the projected array of
    exp (-(sum over the 8 slices k of |P (r, k, o) - P (b, k, o)|)). -/
theorem arr1_2 (c : Dev nD) (r : Fin 512) (o : Fin 128) :
    (dat1 (F := Ideal) V c).arrAt 2 cfg1.N (ix2 r o)
      = ∑ b : Fin 512, Ideal.exp (-(∑ k : Fin 8, max (proj V c (ix3 r k o) - proj V c (ix3 b k o)) (-(proj V c (ix3 r k o) - proj V c (ix3 b k o))))) :=
  (congrFun (arr1_2_eq V c) (ix2 r o)).trans (resArr_apply V c (ix2 r o) r o rfl rfl)

/-- The same, with the projected array named: whatever function `P` the call finds in it. -/
theorem arr1_2_of (c : Dev nD) (P : Vec Ideal S512x8x128 .f32) (hP : proj V c = P) (r : Fin 512) (o : Fin 128) :
    (dat1 (F := Ideal) V c).arrAt 2 cfg1.N (ix2 r o)
      = ∑ b : Fin 512, Ideal.exp (-(∑ k : Fin 8, max (P (ix3 r k o) - P (ix3 b k o)) (-(P (ix3 r k o) - P (ix3 b k o))))) := by
  subst hP
  exact arr1_2 V c r o

end Cert.KernelIdeal.HandValue

end
-- ==== Proof.Spec.lean ====
/-
  The function both programs compute, entry by entry, on the extended reals.

  For x : [512, 512] and T : [512, 128, 8]:
    m[n, o, k]   = Σ_f x[n, f] · T[f, o, k]                                        (`proj`)
    d[a, b, o]   = Σ_k |m[b, o, k] − m[a, o, k]|,  where |y| = max y (−y)          (`dist`)
    feats[a, o]  = Σ_b exp (−d[a, b, o])                                           (`feat`)
    result[n, c] = x[n, c] for c < 512,  feats[n, c − 512] for 512 ≤ c < 640       (`out`, `G`)

  Every index is built from coordinates of literal extent; the sums range over the literal coordinate types.
  The absolute value, the negation and the exponential are the ones the extended reals carry here:
  `max y (−y)`, `−y`, and `Ideal.exp` (0 at −∞, +∞ at +∞, the real exponential in between).
-/
import Idealize.ShloMosaic.PureOps.Ideal
import Idealize.ShloMosaic.Lib.ValueIdx

noncomputable section

open scoped BigOperators

namespace Cert.Spec

open Idealize.ShloMosaic Idealize.ShloMosaic.ValueIdx

/-- The projection m[n, o, k] = Σ_f x[n, f] · T[f, o, k]. -/
def proj (x : FVec Ideal ⟨2, ![512, 512]⟩ .f32) (T : FVec Ideal ⟨3, ![512, 128, 8]⟩ .f32)
    (n : Fin 512) (o : Fin 128) (k : Fin 8) : EReal :=
  ∑ f : Fin 512, x (ix2 n f) * T (ix3 f o k)

/-- The pairwise distance d[a, b, o] = Σ_k |m[b, o, k] − m[a, o, k]|, the absolute value written `max y (−y)`. -/
def dist (x : FVec Ideal ⟨2, ![512, 512]⟩ .f32) (T : FVec Ideal ⟨3, ![512, 128, 8]⟩ .f32)
    (a b : Fin 512) (o : Fin 128) : EReal :=
  ∑ k : Fin 8, max (proj x T b o k - proj x T a o k) (-(proj x T b o k - proj x T a o k))

/-- The feature feats[a, o] = Σ_b exp (−d[a, b, o]). -/
def feat (x : FVec Ideal ⟨2, ![512, 512]⟩ .f32) (T : FVec Ideal ⟨3, ![512, 128, 8]⟩ .f32)
    (a : Fin 512) (o : Fin 128) : EReal :=
  ∑ b : Fin 512, Ideal.exp (-(dist x T a b o))

/-- Row n, column c of the result: x[n, c] in the first 512 columns, feats[n, c − 512] in the last 128. -/
def out (x : FVec Ideal ⟨2, ![512, 512]⟩ .f32) (T : FVec Ideal ⟨3, ![512, 128, 8]⟩ .f32)
    (n : Fin 512) (c : Fin 640) : EReal :=
  if h : c.val < 512 then x (ix2 n ⟨c.val, h⟩)
  else feat x T n ⟨c.val - 512, by have := c.isLt; omega⟩

/-- The result array [512, 640], index by index. -/
def G (x : FVec Ideal ⟨2, ![512, 512]⟩ .f32) (T : FVec Ideal ⟨3, ![512, 128, 8]⟩ .f32) :
    FVec Ideal ⟨2, ![512, 640]⟩ .f32 :=
  fun i => out x T (i 0) (i 1)

/-- The result at the index with coordinates (n, c). -/
theorem G_ix2 (x : FVec Ideal ⟨2, ![512, 512]⟩ .f32) (T : FVec Ideal ⟨3, ![512, 128, 8]⟩ .f32)
    (n : Fin 512) (c : Fin 640) : G x T (ix2 n c) = out x T n c := rfl

/-- A column below 512 holds the entry of x. -/
theorem out_left (x : FVec Ideal ⟨2, ![512, 512]⟩ .f32) (T : FVec Ideal ⟨3, ![512, 128, 8]⟩ .f32)
    (n : Fin 512) (c : Fin 640) (f : Fin 512) (hc : c.val = f.val) : out x T n c = x (ix2 n f) := by
  have h : c.val < 512 := by have := f.isLt; omega
  rw [out, dif_pos h]
  exact congrArg (fun q => x (ix2 n q)) (Fin.ext hc)

/-- A column from 512 on holds the feature of the column 512 less. -/
theorem out_right (x : FVec Ideal ⟨2, ![512, 512]⟩ .f32) (T : FVec Ideal ⟨3, ![512, 128, 8]⟩ .f32)
    (n : Fin 512) (c : Fin 640) (o : Fin 128) (hc : o.val + 512 = c.val) : out x T n c = feat x T n o := by
  have h : ¬ c.val < 512 := by omega
  rw [out, dif_neg h]
  exact congrArg (feat x T n) (Fin.ext (by show c.val - 512 = o.val; omega))

end Cert.Spec

end
-- ==== Proof.KernelIsSpec.lean ====
/-
  The kernel's data flow, stated over whole arrays on the extended reals, is the specification's array `Cert.Spec.G`.

  The program first exchanges the last two axes of T and flattens them, so that column k·128 + o of row f holds
  T[f, o, k]; one matrix product M = x · (that array) then holds, at row n and column k·128 + o, the projection
  m[n, o, k]; M is viewed as [512, 8, 128]; the second call fills Fe[r, o] with Σ_b exp (−Σ_k |m[r, o, k] − m[b, o, k]|);
  and x and Fe are laid side by side. The specification has the differences in the other order, m[b] − m[r]:
  the absolute value max y (−y) does not see the order, at the infinities either.
-/
import proofs.«147698_j2860448219172_1_alg».proof.KernelIdeal
import proofs.«147698_j2860448219172_1_alg».proof.Proof.Spec
import Idealize.ShloMosaic.Lib.Pipeline.Value
import Idealize.ShloMosaic.Lib.ValueIdx

noncomputable section

open scoped BigOperators

namespace Cert.KernelIdeal.KernelSpec

open Cert.KernelIdeal Idealize.ShloMosaic Idealize.ShloMosaic.ValueIdx

/-- |a − b| = |b − a| on the extended reals, the absolute value written max y (−y): for two reals it is the reals'
    law; when either is infinite both sides are +∞. -/
theorem abs_sub_comm (a b : EReal) : max (a - b) (-(a - b)) = max (b - a) (-(b - a)) := by
  induction a using EReal.rec <;> induction b using EReal.rec
  all_goals first
    | (rw [← EReal.coe_sub, ← EReal.coe_sub, ← EReal.coe_neg, ← EReal.coe_neg, neg_sub, neg_sub, max_comm])
    | simp

/-- Column k·128 + o lies among the 1024 columns. -/
theorem col_lt (k : Fin 8) (o : Fin 128) : k.val * 128 + o.val < 1024 := by
  have hk := k.isLt; have ho := o.isLt; omega

/-- The column of (k, o) in the flat [512, 1024] layout. -/
abbrev col (k : Fin 8) (o : Fin 128) : Fin 1024 := ⟨k.val * 128 + o.val, col_lt k o⟩

section
variable [Facts₀]
open Facts₀

/-- A [512, 1024] array viewed as [512, 8, 128] reads, at (r, k, o), row r at column k·128 + o. -/
theorem unflat_apply {α : Type} (M : S512x1024.Idx → α) (r : Fin 512) (k : Fin 8) (o : Fin 128) :
    shapeCast S512x8x128 M shapeCasts_S512x1024_S512x8x128 (ix3 r k o) = M (ix2 r (col k o)) :=
  shapeCast_apply M shapeCasts_S512x1024_S512x8x128 (ix3 r k o) (ix2 r (col k o)) (by
    rw [Shape.rowMajor_val_two, Shape.rowMajor_val_three]
    show r.val * 1024 + (k.val * 128 + o.val) = (r.val * 8 + k.val) * 128 + o.val
    omega)

/-- T with its last two axes exchanged and then flattened reads, at row f and column k·128 + o, the entry T[f, o, k]. -/
theorem flatT_apply {α : Type} (T : S512x128x8.Idx → α) (f : Fin 512) (k : Fin 8) (o : Fin 128) :
    shapeCast S512x1024 (transpose S512x8x128 [0, 2, 1] T transposes_S512x128x8_S512x8x128_0_2_1)
        shapeCasts_S512x8x128_S512x1024 (ix2 f (col k o))
      = T (ix3 f o k) := by
  refine (shapeCast_apply _ shapeCasts_S512x8x128_S512x1024 (ix2 f (col k o)) (ix3 f k o) (by
    rw [Shape.rowMajor_val_three, Shape.rowMajor_val_two]
    show (f.val * 8 + k.val) * 128 + o.val = f.val * 1024 + (k.val * 128 + o.val)
    omega)).trans ?_
  exact transpose_apply [0, 2, 1] T transposes_S512x128x8_S512x8x128_0_2_1 (ix3 f k o) (ix3 f o k) (fun b => by
    match b with
    | ⟨0, _⟩ => rfl
    | ⟨1, _⟩ => rfl
    | ⟨2, _⟩ => rfl)

/-- The product array viewed as [512, 8, 128] holds, at (r, k, o), the projection m[r, o, k]. -/
theorem proj_of_M (x : FVec Ideal S512x512 .f32) (T : FVec Ideal S512x128x8 .f32) (M : FVec Ideal S512x1024 .f32)
    (hM : ∀ (n : Fin 512) (q : Fin 1024), M (ix2 n q) = ∑ f : Fin 512, x (ix2 n f) * (shapeCast S512x1024 (transpose S512x8x128 [0, 2, 1] T transposes_S512x128x8_S512x8x128_0_2_1) shapeCasts_S512x8x128_S512x1024) (ix2 f q))
    (r : Fin 512) (k : Fin 8) (o : Fin 128) :
    shapeCast S512x8x128 M shapeCasts_S512x1024_S512x8x128 (ix3 r k o) = Cert.Spec.proj x T r o k := by
  rw [unflat_apply, hM]
  unfold Cert.Spec.proj
  exact Finset.sum_congr rfl fun f _ => by rw [flatT_apply]

/-- The second call's array holds, at (r, o), the feature feats[r, o]. -/
theorem feat_of_Fe (x : FVec Ideal S512x512 .f32) (T : FVec Ideal S512x128x8 .f32) (M : FVec Ideal S512x1024 .f32)
    (Fe : FVec Ideal S512x128 .f32)
    (hM : ∀ (n : Fin 512) (q : Fin 1024), M (ix2 n q) = ∑ f : Fin 512, x (ix2 n f) * (shapeCast S512x1024 (transpose S512x8x128 [0, 2, 1] T transposes_S512x128x8_S512x8x128_0_2_1) shapeCasts_S512x8x128_S512x1024) (ix2 f q))
    (hFe : ∀ (r : Fin 512) (o : Fin 128), Fe (ix2 r o) = ∑ b : Fin 512, Ideal.exp (-(∑ k : Fin 8, max ((shapeCast S512x8x128 M shapeCasts_S512x1024_S512x8x128) (ix3 r k o) - (shapeCast S512x8x128 M shapeCasts_S512x1024_S512x8x128) (ix3 b k o)) (-((shapeCast S512x8x128 M shapeCasts_S512x1024_S512x8x128) (ix3 r k o) - (shapeCast S512x8x128 M shapeCasts_S512x1024_S512x8x128) (ix3 b k o))))))
    (r : Fin 512) (o : Fin 128) : Fe (ix2 r o) = Cert.Spec.feat x T r o := by
  rw [hFe]
  unfold Cert.Spec.feat Cert.Spec.dist
  refine Finset.sum_congr rfl fun b _ => ?_
  refine congrArg (fun d : EReal => Ideal.exp (-d)) (Finset.sum_congr rfl fun k _ => ?_)
  rw [proj_of_M x T M hM r k o, proj_of_M x T M hM b k o]
  exact abs_sub_comm _ _

/-- x and the second call's array side by side are the specification's array. -/
theorem kernel_eq (x : FVec Ideal S512x512 .f32) (T : FVec Ideal S512x128x8 .f32) (M : FVec Ideal S512x1024 .f32)
    (Fe : FVec Ideal S512x128 .f32)
    (hM : ∀ (n : Fin 512) (q : Fin 1024), M (ix2 n q) = ∑ f : Fin 512, x (ix2 n f) * (shapeCast S512x1024 (transpose S512x8x128 [0, 2, 1] T transposes_S512x128x8_S512x8x128_0_2_1) shapeCasts_S512x8x128_S512x1024) (ix2 f q))
    (hFe : ∀ (r : Fin 512) (o : Fin 128), Fe (ix2 r o) = ∑ b : Fin 512, Ideal.exp (-(∑ k : Fin 8, max ((shapeCast S512x8x128 M shapeCasts_S512x1024_S512x8x128) (ix3 r k o) - (shapeCast S512x8x128 M shapeCasts_S512x1024_S512x8x128) (ix3 b k o)) (-((shapeCast S512x8x128 M shapeCasts_S512x1024_S512x8x128) (ix3 r k o) - (shapeCast S512x8x128 M shapeCasts_S512x1024_S512x8x128) (ix3 b k o)))))) :
    concatenate S512x640 1 [⟨S512x512, x⟩, ⟨S512x128, Fe⟩] concatenates_S512x512_S512x128_S512x640_d1 = Cert.Spec.G x T := by
  funext i
  obtain ⟨n, c, rfl⟩ : ∃ (n : Fin 512) (c : Fin 640), i = ix2 n c := ⟨i 0, i 1, eq_ix2 i⟩
  rw [Cert.Spec.G_ix2]
  by_cases h : c.val < 512
  · rw [Cert.Spec.out_left x T n c ⟨c.val, h⟩ rfl]
    exact concatenate_pair_apply_left 1 x Fe concatenates_S512x512_S512x128_S512x640_d1
      (ix2 n c) rfl (ix2 n ⟨c.val, h⟩) (fun b => by
        match b with
        | ⟨0, _⟩ => rfl
        | ⟨1, _⟩ => rfl)
  · have hc := c.isLt
    have h2 : c.val - 512 < 128 := by omega
    rw [Cert.Spec.out_right x T n c ⟨c.val - 512, h2⟩ (by show c.val - 512 + 512 = c.val; omega),
      ← feat_of_Fe x T M Fe hM hFe]
    exact concatenate_pair_apply_right 1 x Fe concatenates_S512x512_S512x128_S512x640_d1
      (ix2 n c) rfl rfl (ix2 n ⟨c.val - 512, h2⟩)
      (fun b hb => by
        match b with
        | ⟨0, _⟩ => rfl
        | ⟨1, _⟩ => exact absurd rfl hb)
      (by show c.val - 512 + 512 = c.val; omega)

end

end Cert.KernelIdeal.KernelSpec

end
-- ==== Proof.Value.lean ====
/-
  What the idealized kernel program computes, on the extended reals: its result buffer ends at the specification's
  function of the two arguments. The projection call leaves M[n, q] = Σ_f x[n, f] · T'[f, q] where T' is T with its last
  two axes swapped and flattened (column k·128 + o holds T[f, o, k]); reshaped to [512, 8, 128] this is the projection
  m[n, o, k] laid out as (n, k, o). The pairwise call leaves feats[r, o] = Σ_b exp(−Σ_k |m[r, o, k] − m[b, o, k]|), its
  four j-blocks of 128 rows joined into one sum over all 512 rows. The result is x beside feats. The absolute value is
  symmetric on the extended reals, which is all that separates this from the specification's d[a, b, o].
-/
import proofs.«147698_j2860448219172_1_alg».proof.Proof.FrameKernelIdeal.Run
import proofs.«147698_j2860448219172_1_alg».proof.Proof.HostGlue
import proofs.«147698_j2860448219172_1_alg».proof.Proof.ValueReg0
import proofs.«147698_j2860448219172_1_alg».proof.Proof.ValueReg1
import proofs.«147698_j2860448219172_1_alg».proof.Proof.KernelIsSpec

noncomputable section

namespace Cert.KernelIdeal.HandValue

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

/-- The two arguments on core `c`, and the two calls' output arrays. -/
abbrev xA (c : Dev nD) : FVec Ideal S512x512 .f32 := m ((c : Thread nD τ).loc main_arg0)
abbrev tA (c : Dev nD) : FVec Ideal S512x128x8 .f32 := m ((c : Thread nD τ).loc main_arg1)
abbrev mA (c : Dev nD) : FVec Ideal S512x1024 .f32 := X2 m c
abbrev fA (c : Dev nD) : FVec Ideal S512x128 .f32 := X4 m c

/-- The projection call's array, entry by entry: the row of x against the column of the re-laid T. -/
theorem hM (c : Dev nD) (n : Fin 512) (q : Fin 1024) :
    mA m c (ix2 n q) = ∑ f : Fin 512, xA m c (ix2 n f)
      * (shapeCast S512x1024 (transpose S512x8x128 [0, 2, 1] (tA m c) transposes_S512x128x8_S512x8x128_0_2_1) shapeCasts_S512x8x128_S512x1024) (ix2 f q) := by
  have h := arr0_2 (E1 m) c n q
  have e0 : lhs0 (E1 m) c = xA m c := V1_main_arg0 m c
  have e1 : rhs0 (E1 m) c = shapeCast S512x1024 (transpose S512x8x128 [0, 2, 1] (tA m c) transposes_S512x128x8_S512x8x128_0_2_1) shapeCasts_S512x8x128_S512x1024 :=
    V1_main_v1 m c
  rw [e0, e1] at h
  exact h

/-- The pairwise call reads the projection call's array, reshaped. -/
theorem eP (c : Dev nD) : E3 m (outs₂ m) c main_v3 = shapeCast S512x8x128 (mA m c) shapeCasts_S512x1024_S512x8x128 := by
  show V3 m (outs₂ m) c main_v3 = _
  rw [V3_main_v3, V2_main_v2, outs₂_2]

/-- The pairwise call's array, entry by entry. -/
theorem hFe (c : Dev nD) (r : Fin 512) (o : Fin 128) :
    fA m c (ix2 r o) = ∑ b : Fin 512, Ideal.exp (-(∑ k : Fin 8,
      max ((shapeCast S512x8x128 (mA m c) shapeCasts_S512x1024_S512x8x128) (ix3 r k o) - (shapeCast S512x8x128 (mA m c) shapeCasts_S512x1024_S512x8x128) (ix3 b k o))
        (-((shapeCast S512x8x128 (mA m c) shapeCasts_S512x1024_S512x8x128) (ix3 r k o) - (shapeCast S512x8x128 (mA m c) shapeCasts_S512x1024_S512x8x128) (ix3 b k o))))) := by
  exact arr1_2_of (E3 m (outs₂ m)) c (shapeCast S512x8x128 (mA m c) shapeCasts_S512x1024_S512x8x128) (eP m c) r o

/-- THE KERNEL'S VALUE: the fold's last contents of the result buffer are the specification's function. -/
theorem result_eq (c : Dev nD) : V5 m (theOuts m) c main_v5 = Cert.Spec.G (xA m c) (tA m c) := by
  rw [V5_main_v5, V4_main_arg0, V4_main_v4, theOuts_4]
  exact Cert.KernelIdeal.KernelSpec.kernel_eq (xA m c) (tA m c) (mA m c) (fA m c) (hM m c) (hFe m c)

/-- The kernel program's run, the result at the specification. -/
theorem run (ρ : Dev nD → PrngReg) :
    θ_run defs (onTc (τ := τ) (main (F := Ideal))) ⟨m, fun _ => 0, ρ⟩ (fun r => ∀ c : Dev nD,
      r.2.mem ((c.tc : Thread nD τ).loc main_v5) = Cert.Spec.G (xA m c) (tA m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (result_eq m c), (h c).2⟩) (Cert.KernelIdeal.Hand.run m ρ)

end Cert.KernelIdeal.HandValue

end
-- ==== Proof.RefIsSpec.lean ====
/-
  The reference program's result, read entry by entry, is the specification's array `Cert.Spec.G`.

  The reference computes m = reshape(x · reshape(T)) back to [512, 128, 8], the differences m[b] − m[a] over a
  [512, 512, 128, 8] array by two broadcasts, their absolute values summed over the last axis, the exponential of the
  negated sums summed over the second axis, and lays x and that [512, 128] array side by side. Each lemma below reads
  one group of these stages at an index given by its coordinates.
-/
import proofs.«147698_j2860448219172_1_alg».proof.Proof.Gen.ReferenceIdeal.Read
import proofs.«147698_j2860448219172_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The projection m[n, o, k]

The flat position of (n, o, k) in [512, 128, 8] is (n·128 + o)·8 + k; in [512, 1024] that is row n, column o·8 + k,
and column o·8 + k of row f of the reshaped T is T[f, o, k]. -/

/-- Row n of x at contraction position f. -/
theorem lidx_eq (n : Fin 512) (o : Fin 128) (k : Fin 8) (f : Fin 512) :
    lidx_main_v1 (idx_main_v2 (ix3 n o k)) f = ix2 n f := by
  funext a; refine Fin.ext ?_
  have hn := n.isLt; have ho := o.isLt; have hk := k.isLt
  match a with
  | ⟨0, _⟩ => show ((n.val * 128 + o.val) * 8 + k.val) / 1024 = n.val; omega
  | ⟨1, _⟩ => rfl

/-- Entry (f, o·8 + k) of the reshaped T is T[f, o, k]. -/
theorem ridx_eq (n : Fin 512) (o : Fin 128) (k : Fin 8) (f : Fin 512) :
    idx_main_v0 (ridx_main_v1 (idx_main_v2 (ix3 n o k)) f) = ix3 f o k := by
  funext a; refine Fin.ext ?_
  have hn := n.isLt; have ho := o.isLt; have hk := k.isLt; have hf := f.isLt
  match a with
  | ⟨0, _⟩ => show (f.val * 1024 + ((n.val * 128 + o.val) * 8 + k.val) % 1024) / 1024 = f.val; omega
  | ⟨1, _⟩ => show (f.val * 1024 + ((n.val * 128 + o.val) * 8 + k.val) % 1024) / 8 % 128 = o.val; omega
  | ⟨2, _⟩ => show (f.val * 1024 + ((n.val * 128 + o.val) * 8 + k.val) % 1024) % 8 = k.val; omega

/-- The reshaped product at (n, o, k) is the projection Σ_f x[n, f] · T[f, o, k]. -/
theorem m_apply (x : FVec Ideal S512x512 .f32) (T : FVec Ideal S512x128x8 .f32) (n : Fin 512) (o : Fin 128) (k : Fin 8) :
    val_main_v2 (F := Ideal) x T (ix3 n o k) = Cert.Spec.proj x T n o k := by
  rw [val_main_v2_apply, val_main_v1_apply]
  unfold Cert.Spec.proj
  refine Finset.sum_congr rfl fun f _ => ?_
  rw [val_main_v0_apply, lidx_eq, ridx_eq]

/-! ## The differences m[b, o, k] − m[a, o, k] and their absolute values

Entry (a, b, o, k) of the first broadcast array is m[b, o, k], of the second m[a, o, k]. -/

/-- The first broadcast array at (a, b, o, k) reads m at (b, o, k). -/
theorem idx_b (a b : Fin 512) (o : Fin 128) (k : Fin 8) :
    idx_main_v3 (idx_main_v5 (ix4 a b o k)) = ix3 b o k := by
  funext d; refine Fin.ext ?_
  match d with
  | ⟨0, _⟩ => rfl
  | ⟨1, _⟩ => rfl
  | ⟨2, _⟩ => rfl

/-- The second broadcast array at (a, b, o, k) reads m at (a, o, k). -/
theorem idx_a (a b : Fin 512) (o : Fin 128) (k : Fin 8) :
    idx_main_v4 (idx_main_v6 (ix4 a b o k)) = ix3 a o k := by
  funext d; refine Fin.ext ?_
  match d with
  | ⟨0, _⟩ => rfl
  | ⟨1, _⟩ => rfl
  | ⟨2, _⟩ => rfl

/-- The absolute difference at (a, b, o, k) is |m[b, o, k] − m[a, o, k]|. -/
theorem abs_apply (x : FVec Ideal S512x512 .f32) (T : FVec Ideal S512x128x8 .f32)
    (a b : Fin 512) (o : Fin 128) (k : Fin 8) :
    val_main_v8 (F := Ideal) x T (ix4 a b o k)
      = max (Cert.Spec.proj x T b o k - Cert.Spec.proj x T a o k) (-(Cert.Spec.proj x T b o k - Cert.Spec.proj x T a o k)) := by
  rw [val_main_v8_apply, val_main_v7_apply, val_main_v5_apply, val_main_v3_apply, val_main_v6_apply, val_main_v4_apply,
    idx_b, idx_a, m_apply, m_apply]
  rfl

/-! ## The distance d[a, b, o]: the sum over k, from the initial value zero -/

/-- Summand k of entry (a, b, o) of the sum over the last axis is entry (a, b, o, k). -/
theorem idx_k (a b : Fin 512) (o : Fin 128) (k : Fin 8) : idx_main_v9 (ix3 a b o) k = ix4 a b o k := by
  funext d; refine Fin.ext ?_
  match d with
  | ⟨0, _⟩ => rfl
  | ⟨1, _⟩ => rfl
  | ⟨2, _⟩ => rfl
  | ⟨3, _⟩ => rfl

/-- The sum over the last axis at (a, b, o) is the distance d[a, b, o]. -/
theorem dist_apply (x : FVec Ideal S512x512 .f32) (T : FVec Ideal S512x128x8 .f32) (a b : Fin 512) (o : Fin 128) :
    val_main_v9 (F := Ideal) x T (ix3 a b o) = Cert.Spec.dist x T a b o := by
  rw [val_main_v9_apply, val_main_cst_apply, Ideal.ofBits_def, Ideal.ofBits_zero_f32, zero_add]
  unfold Cert.Spec.dist
  refine Finset.sum_congr rfl fun k _ => ?_
  rw [idx_k, abs_apply]

/-! ## The feature feats[a, o]: the sum over b of exp (−d[a, b, o]), from the initial value zero -/

/-- Summand b of entry (a, o) of the sum over the middle axis is entry (a, b, o). -/
theorem idx_bsum (a : Fin 512) (o : Fin 128) (b : Fin 512) : idx_main_v12 (ix2 a o) b = ix3 a b o := by
  funext d; refine Fin.ext ?_
  match d with
  | ⟨0, _⟩ => rfl
  | ⟨1, _⟩ => rfl
  | ⟨2, _⟩ => rfl

/-- The sum over the middle axis at (a, o) is the feature feats[a, o]. -/
theorem feat_apply (x : FVec Ideal S512x512 .f32) (T : FVec Ideal S512x128x8 .f32) (a : Fin 512) (o : Fin 128) :
    val_main_v12 (F := Ideal) x T (ix2 a o) = Cert.Spec.feat x T a o := by
  rw [val_main_v12_apply, val_main_cst_0_apply, Ideal.ofBits_def, Ideal.ofBits_zero_f32, zero_add]
  unfold Cert.Spec.feat
  refine Finset.sum_congr rfl fun b _ => ?_
  rw [idx_bsum, val_main_v11_apply, val_main_v10_apply, dist_apply, Ideal.hostUnary_exp_def, Ideal.hostNegf_def,
    Ideal.negf_def]

/-! ## The result: x and the features side by side -/

/-- Entry (n, c) of the concatenation along the columns is x[n, c] below column 512 and feats[n, c − 512] from there on. -/
theorem out_apply (x : FVec Ideal S512x512 .f32) (T : FVec Ideal S512x128x8 .f32) (n : Fin 512) (c : Fin 640) :
    val_main_v13 (F := Ideal) x T (ix2 n c) = Cert.Spec.out x T n c := by
  unfold val_main_v13
  by_cases h : c.val < 512
  · rw [Cert.Spec.out_left x T n c ⟨c.val, h⟩ rfl]
    exact concatenate_pair_apply_left 1 x (val_main_v12 (F := Ideal) x T) concatenates_S512x512_S512x128_S512x640_d1
      (ix2 n c) rfl (ix2 n ⟨c.val, h⟩) (fun b => by
        match b with
        | ⟨0, _⟩ => rfl
        | ⟨1, _⟩ => rfl)
  · have hc := c.isLt
    have h2 : c.val - 512 < 128 := by omega
    rw [Cert.Spec.out_right x T n c ⟨c.val - 512, h2⟩ (by show c.val - 512 + 512 = c.val; omega), ← feat_apply]
    exact concatenate_pair_apply_right 1 x (val_main_v12 (F := Ideal) x T) concatenates_S512x512_S512x128_S512x640_d1
      (ix2 n c) rfl rfl (ix2 n ⟨c.val - 512, h2⟩)
      (fun b hb => by
        match b with
        | ⟨0, _⟩ => rfl
        | ⟨1, _⟩ => exact absurd rfl hb)
      (by show c.val - 512 + 512 = c.val; omega)

/-- The reference's last stage is the specification's array. -/
theorem ref_eq_val (x : FVec Ideal S512x512 .f32) (T : FVec Ideal S512x128x8 .f32) :
    val_main_v13 (F := Ideal) x T = Cert.Spec.G x T := by
  funext i
  obtain ⟨n, c, rfl⟩ : ∃ (n : Fin 512) (c : Fin 640), i = ix2 n c := ⟨i 0, i 1, eq_ix2 i⟩
  exact (out_apply x T n c).trans (Cert.Spec.G_ix2 x T n c).symm

/-- The term the reference's run ends with at its result buffer, at arguments x and T, is the specification's array. -/
theorem ref_eq (x : FVec Ideal S512x512 .f32) (T : FVec Ideal S512x128x8 .f32) :
    concatenate S512x640 1 [⟨S512x512, x⟩, ⟨S512x128, (Host.reduceAdd (F := Ideal) (Host.exp (Host.negf (Host.reduceAdd (F := Ideal) (Host.absf (subf (broadcastInDim S512x512x128x8 ![0, 1, 2, 3] bcast_S1x512x128x8_S512x512x128x8_0_1_2_3 (broadcastInDim S1x512x128x8 ![1, 2, 3] bcast_S512x128x8_S1x512x128x8_1_2_3 (shapeCast _ (Host.dotGeneral dot_S512x512_S512x1024_S512x1024_1_0_0_1_n_n none x (shapeCast _ T shapeCasts_S512x128x8_S512x1024)) shapeCasts_S512x1024_S512x128x8))) (broadcastInDim S512x512x128x8 ![0, 1, 2, 3] bcast_S512x1x128x8_S512x512x128x8_0_1_2_3 (broadcastInDim S512x1x128x8 ![0, 2, 3] bcast_S512x128x8_S512x1x128x8_0_2_3 (shapeCast _ (Host.dotGeneral dot_S512x512_S512x1024_S512x1024_1_0_0_1_n_n none x (shapeCast _ T shapeCasts_S512x128x8_S512x1024)) shapeCasts_S512x1024_S512x128x8))))) (constant (F := Ideal) S_ .f32 0x00000000#32) reducesTo_S512x512x128x8_S512x512x128_d3 h_S_))) (constant (F := Ideal) S_ .f32 0x00000000#32) reducesTo_S512x512x128_S512x128_d1 h_S_)⟩] concatenates_S512x512_S512x128_S512x640_d1
      = Cert.Spec.G x T :=
  (val_main_v13_eq (F := Ideal) x T).trans (ref_eq_val x T)

end Cert.ReferenceIdeal.RefValue

end
-- ==== Proof.lean ====
/-
  Minibatch discrimination: m = x · T (x : [512, 512], T : [512, 128, 8]), d[a, b, o] = Σ_k |m[b, o, k] − m[a, o, k]|,
  feats[a, o] = Σ_b exp(−d[a, b, o]), result = x beside feats : [512, 640].

  The kernel program computes this in two pallas_calls: one untiled matrix product of x with T re-laid as
  [512, 8·128], then a 4 × 4 grid over pairs of 128-row blocks that accumulates, over the four j-blocks, the sums of
  exp(−Σ_k |m_i − m_j|) into the i-th output block. The reference computes it with a dot_general, two broadcasts and
  two reductions. On the extended reals both are the one function `Cert.Spec.G` of the arguments: a change of float
  format is the identity, a sum does not depend on its grouping, and |p − q| = |q − p| also at the infinities. No
  finiteness of the inputs is used.

  Frames: each kernel call is run on its staging buffers at every grid point and the calls are chained through the host
  operations between them; the reference's frame is its run with the result dropped. The ideal pass rewrote nothing,
  so `preserves` is `True`.
-/
import proofs.«147698_j2860448219172_1_alg».proof.Defs
import proofs.«147698_j2860448219172_1_alg».proof.Proof.Gen.Kernel
import proofs.«147698_j2860448219172_1_alg».proof.Proof.Gen.KernelIdeal
import proofs.«147698_j2860448219172_1_alg».proof.Proof.Gen.ReferenceIdeal
import proofs.«147698_j2860448219172_1_alg».proof.Proof.Gen.Pre_finite_inputs
import proofs.«147698_j2860448219172_1_alg».proof.Proof.Gen.ReferenceIdeal.Run
import proofs.«147698_j2860448219172_1_alg».proof.Proof.Gen.ReferenceIdeal.Read
import proofs.«147698_j2860448219172_1_alg».proof.Proof.FrameKernel.Run
import proofs.«147698_j2860448219172_1_alg».proof.Proof.FrameKernelIdeal.Run
import proofs.«147698_j2860448219172_1_alg».proof.Proof.Value
import proofs.«147698_j2860448219172_1_alg».proof.Proof.RefIsSpec

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- So does the idealized kernel program. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both programs end with the specification's function of them. -/
theorem algebraic : Cert.algebraic_KernelIdeal_ReferenceIdeal := by
  intro m ρ m' ρ' _ hagree
  refine ⟨fun c => Cert.Spec.G (Cert.KernelIdeal.HandValue.xA m c) (Cert.KernelIdeal.HandValue.tA m c),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact Cert.ReferenceIdeal.RefValue.ref_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
